-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x16384 .f32) (main_arg5 : FVec F S16384 .f32) (main_arg6 : FVec F S16384x4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384x4096 .f32 := Host.absf main_arg6
  let main_cst_10 : FVec F S_ .f32 := constant S_ .f32 0x7F800000#32
  let main_v30 : FVec F S16384x4096 .f32 := broadcastInDim S16384x4096 ![] bcast_S_S16384x4096 main_cst_10
  let main_v31 : IVec S16384x4096 1 := cmpf .olt main_v29 main_v30
  let main_c_11 : IVec S_ 1 := constantI S_ 1 1#1
  let main_v32 : IVec S_ 1 := (fun x v => Host.reduce IntOp.andi x v reducesTo_S16384x4096_S_d0_1 h_S_) main_v31 main_c_11
  let main_v33 : IVec S_ 1 := andi main_v28 main_v32
  fn_part2 (F := F) main_arg7 main_v33

def fn {F : FTy → Type} [FloatOps F] (main_arg0 : FVec F S2x2048x4096 .f32) (main_arg1 : FVec F S2x2048x4096 .f32) (main_arg2 : FVec F S4096 .f32) (main_arg3 : FVec F S4096 .f32) (main_arg4 : FVec F S4096x16384 .f32) (main_arg5 : FVec F S16384 .f32) (main_arg6 : FVec F S16384x4096 .f32) (main_arg7 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S4096x4096 : Shape := ⟨2, ![4096, 4096]⟩
abbrev S1x4096 : Shape := ⟨2, ![1, 4096]⟩
abbrev S1x16384 : Shape := ⟨2, ![1, 16384]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S4096x256 : Shape := ⟨2, ![4096, 256]⟩
abbrev S1x256 : Shape := ⟨2, ![1, 256]⟩
abbrev S512x256 : Shape := ⟨2, ![512, 256]⟩

abbrev nBuf : Space → Nat
  | .hbm => 20
  | .vmem => 21
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096x16384, .f32⟩
  | .hbm, ⟨5, _⟩ => ⟨S16384, .f32⟩
  | .hbm, ⟨6, _⟩ => ⟨S16384x4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S1x4096, .f32⟩
  | .hbm, ⟨12, _⟩ => ⟨S1x16384, .f32⟩
  | .hbm, ⟨13, _⟩ => ⟨S1x4096, .f32⟩
  | .hbm, ⟨14, _⟩ => ⟨S4096x4096, .bf16⟩
  | .hbm, ⟨15, _⟩ => ⟨S4096x4096, .f32⟩
  | .hbm, ⟨16, _⟩ => ⟨S4096x16384, .bf16⟩
  | .hbm, ⟨17, _⟩ => ⟨S16384x4096, .bf16⟩
  | .hbm, ⟨18, _⟩ => ⟨S4096x4096, .f32⟩
  | .hbm, ⟨19, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S512x4096, .bf16⟩
  | .local _ .vmem, ⟨11, _⟩ => ⟨S4096x256, .bf16⟩
  | .local _ .vmem, ⟨12, _⟩ => ⟨S4096x256, .bf16⟩
  | .local _ .vmem, ⟨13, _⟩ => ⟨S1x256, .f32⟩
  | .local _ .vmem, ⟨14, _⟩ => ⟨S1x256, .f32⟩
  | .local _ .vmem, ⟨15, _⟩ => ⟨S256x4096, .bf16⟩
  | .local _ .vmem, ⟨16, _⟩ => ⟨S256x4096, .bf16⟩
  | .local _ .vmem, ⟨17, _⟩ => ⟨S1x4096, .f32⟩
  | .local _ .vmem, ⟨18, _⟩ => ⟨S512x4096, .f32⟩
  | .local _ .vmem, ⟨19, _⟩ => ⟨S512x4096, .f32⟩
  | .local _ .vmem, ⟨20, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 2 → Memref sig .tc .vmem S512x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S2x2048x4096_S4096x4096 : S2x2048x4096.ShapeCasts S4096x4096
  shapeCasts_S4096_S1x4096 : S4096.ShapeCasts S1x4096
  shapeCasts_S16384_S1x16384 : S16384.ShapeCasts S1x16384
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  broadcasts_S1x4096_S512x4096 : S1x4096.Broadcasts S512x4096
  shapeCasts_S4096x4096_S2x2048x4096 : S4096x4096.ShapeCasts S2x2048x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x16384.size a
  hwx1_1 : ∀ i : grid1.Coords, EltTy.bits .bf16 = 32 ∨ (Rect.block (s := S4096x16384) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x16384.size a
  hwx1_2 : ∀ i : grid1.Coords, EltTy.bits .f32 = 32 ∨ (Rect.block (s := S1x16384) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .bf16 = 32 ∨ (Rect.block (s := S16384x4096) S256x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S4096x4096.size a
  hwx1_5 : ∀ i : grid1.Coords, EltTy.bits .f32 = 32 ∨ (Rect.block (s := S4096x4096) S512x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x4096.size a ≤ S4096x4096.size a
  hwx1_6 : ∀ i : grid1.Coords, EltTy.bits .f32 = 32 ∨ (Rect.block (s := S4096x4096) S512x4096.size (cc1_transform_6 i) (hinb1_6 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S512x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S512x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x2048x16384 : Shape := ⟨3, ![2, 2048, 16384]⟩
abbrev S1x1x16384 : Shape := ⟨3, ![1, 1, 16384]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096x16384, .f32⟩
  | .hbm, ⟨5, _⟩ => ⟨S16384, .f32⟩
  | .hbm, ⟨6, _⟩ => ⟨S16384x4096, .f32⟩
  | .hbm, ⟨7, _⟩ => ⟨S4096, .f32⟩
  | .hbm, ⟨8, _⟩ => ⟨S2x2048x4096, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x4096, .f32⟩
  | .hbm, ⟨16, _⟩ => ⟨S2x2048x4096, .f32⟩
  | .hbm, ⟨17, _⟩ => ⟨S2x2048x4096, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x4096, .f32⟩
  | .hbm, ⟨25, _⟩ => ⟨S2x2048x4096, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x4096, .f32⟩
  | .hbm, ⟨31, _⟩ => ⟨S2x2048x4096, .f32⟩
  | .hbm, ⟨32, _⟩ => ⟨S1x1x4096, .f32⟩
  | .hbm, ⟨33, _⟩ => ⟨S2x2048x4096, .f32⟩
  | .hbm, ⟨34, _⟩ => ⟨S2x2048x4096, .f32⟩
  | .hbm, ⟨35, _⟩ => ⟨S1x1x4096, .f32⟩
  | .hbm, ⟨36, _⟩ => ⟨S2x2048x4096, .f32⟩
  | .hbm, ⟨37, _⟩ => ⟨S2x2048x4096, .f32⟩
  | .hbm, ⟨38, _⟩ => ⟨S2x2048x16384, .f32⟩
  | .hbm, ⟨39, _⟩ => ⟨S1x1x16384, .f32⟩
  | .hbm, ⟨40, _⟩ => ⟨S2x2048x16384, .f32⟩
  | .hbm, ⟨41, _⟩ => ⟨S2x2048x16384, .f32⟩
  | .hbm, ⟨42, _⟩ => ⟨S_, .f32⟩
  | .hbm, ⟨43, _⟩ => ⟨S2x2048x16384, .f32⟩
  | .hbm, ⟨44, _⟩ => ⟨S2x2048x16384, .f32⟩
  | .hbm, ⟨45, _⟩ => ⟨S2x2048x4096, .f32⟩
  | .hbm, ⟨46, _⟩ => ⟨S1x1x4096, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x16384 : S_.BroadcastsInDim S2x2048x16384 (![] : Fin 0 → Fin S2x2048x16384.rank)
  dot_S2x2048x4096_S4096x16384_S2x2048x16384_2_0_01_1_n_n_wf : DotDims.WF S2x2048x4096 S4096x16384 S2x2048x16384 [2] [0] [0, 1] [1] [] []
  dot_S2x2048x16384_S16384x4096_S2x2048x4096_2_0_01_1_n_n_wf : DotDims.WF S2x2048x16384 S16384x4096 S2x2048x4096 [2] [0] [0, 1] [1] [] []

variable [Facts₀]

def dot_S2x2048x4096_S4096x16384_S2x2048x16384_2_0_01_1_n_n : DotDims S2x2048x4096 S4096x16384 S2x2048x16384 where
  lhsContracting := [2]
  rhsContracting := [0]
  lhsNonContracting := [0, 1]
  rhsNonContracting := [1]
  lhsBatch := []
  rhsBatch := []
  wf := dot_S2x2048x4096_S4096x16384_S2x2048x16384_2_0_01_1_n_n_wf
def dot_S2x2048x16384_S16384x4096_S2x2048x4096_2_0_01_1_n_n : DotDims S2x2048x16384 S16384x4096 S2x2048x4096 where
  lhsContracting := [2]
  rhsContracting := [0]
  lhsNonContracting := [0, 1]
  rhsNonContracting := [1]
  lhsBatch := []
  rhsBatch := []
  wf := dot_S2x2048x16384_S16384x4096_S2x2048x4096_2_0_01_1_n_n_wf

class Facts : Prop extends Facts₀ where

variable [Facts]
-- ==== Proof.KernelRun.lean ====
/-
  The idealized kernel program's run with its result buffer named.

  The program is a straight line of five segments: host operations, the first pallas_call, host operations, the
  second pallas_call, one last host operation. The buffer contents at each segment boundary are a fold from the
  launch memory; after the last segment every unscoped buffer holds that fold's value. Read at the result buffer
  this gives the result as a term of the launch memory; read at the eight arguments it gives them back unchanged.
-/
import proofs.«158738_j85487029059846_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the eight arguments end as launched. -/
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.Glue.lean ====
/-
  The host operations around the two kernels, read as values.

  Before the first kernel six reshapes lay the inputs out as matrices: the two [2, 2048, 4096] inputs as 4096 x 4096,
  the scale, shift and two bias vectors as single rows. Between the kernels the two weight matrices change float
  format. After the second kernel its 4096 x 4096 result is reshaped back to [2, 2048, 4096]. The first kernel's two
  output arrays reach the second kernel untouched.
-/
import proofs.«158738_j85487029059846_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen

variable {F : FTy → Type} [FloatOps F]
variable (m : (ℓ : Loc nD τ sig) → Buf (Elt F) ℓ) (ρ : Dev nD → PrngReg)

/-! ## Before the first kernel -/

/-- The first input as a 4096 x 4096 matrix. -/
theorem V1_v0 (c : Dev nD) :
    V1 m ρ c main_v0 = shapeCast S4096x4096 (m ((c : Thread nD τ).loc main_arg0)) shapeCasts_S2x2048x4096_S4096x4096 := by
  show StableHlo.after hostOps0 (W0 m ρ c) (Proc.devRef .tc main_v0) = _
  after_results
  rfl

/-- The residual input as a 4096 x 4096 matrix. -/
theorem V1_v1 (c : Dev nD) :
    V1 m ρ c main_v1 = shapeCast S4096x4096 (m ((c : Thread nD τ).loc main_arg1)) shapeCasts_S2x2048x4096_S4096x4096 := by
  show StableHlo.after hostOps0 (W0 m ρ c) (Proc.devRef .tc main_v1) = _
  after_results
  rfl

/-- The scale vector as one row. -/
theorem V1_v2 (c : Dev nD) :
    V1 m ρ c main_v2 = shapeCast S1x4096 (m ((c : Thread nD τ).loc main_arg2)) shapeCasts_S4096_S1x4096 := by
  show StableHlo.after hostOps0 (W0 m ρ c) (Proc.devRef .tc main_v2) = _
  after_results
  rfl

/-- The shift vector as one row. -/
theorem V1_v3 (c : Dev nD) :
    V1 m ρ c main_v3 = shapeCast S1x4096 (m ((c : Thread nD τ).loc main_arg3)) shapeCasts_S4096_S1x4096 := by
  show StableHlo.after hostOps0 (W0 m ρ c) (Proc.devRef .tc main_v3) = _
  after_results
  rfl

/-- The first bias vector as one row. -/
theorem V1_v4 (c : Dev nD) :
    V1 m ρ c main_v4 = shapeCast S1x16384 (m ((c : Thread nD τ).loc main_arg5)) shapeCasts_S16384_S1x16384 := by
  show StableHlo.after hostOps0 (W0 m ρ c) (Proc.devRef .tc main_v4) = _
  after_results
  rfl

/-- The second bias vector as one row. -/
theorem V1_v5 (c : Dev nD) :
    V1 m ρ c main_v5 = shapeCast S1x4096 (m ((c : Thread nD τ).loc main_arg7)) shapeCasts_S4096_S1x4096 := by
  show StableHlo.after hostOps0 (W0 m ρ c) (Proc.devRef .tc main_v5) = _
  after_results
  rfl

/-- The reshapes leave the first weight matrix as launched. -/
theorem V1_arg4 (c : Dev nD) : V1 m ρ c main_arg4 = m ((c : Thread nD τ).loc main_arg4) := by
  show StableHlo.after hostOps0 (W0 m ρ c) (Proc.devRef .tc main_arg4) = _
  after_results

/-- The reshapes leave the second weight matrix as launched. -/
theorem V1_arg6 (c : Dev nD) : V1 m ρ c main_arg6 = m ((c : Thread nD τ).loc main_arg6) := by
  show StableHlo.after hostOps0 (W0 m ρ c) (Proc.devRef .tc main_arg6) = _
  after_results

/-! ## Between the kernels -/

/-- The normalised rows reach the second kernel as the first kernel left them. -/
theorem V3_v6_0 (c : Dev nD) : V3 m ρ c main_v6_0 = (dat0 (V1 m ρ) c).arrAt 4 cfg0.N := by
  show StableHlo.after hostOps1 (W2 m ρ c) (Proc.devRef .tc main_v6_0) = _
  after_results
  exact W2_arr m ρ c 4

/-- The sum rows reach the second kernel as the first kernel left them. -/
theorem V3_v6_1 (c : Dev nD) : V3 m ρ c main_v6_1 = (dat0 (V1 m ρ) c).arrAt 5 cfg0.N := by
  show StableHlo.after hostOps1 (W2 m ρ c) (Proc.devRef .tc main_v6_1) = _
  after_results
  exact W2_arr m ρ c 5

/-- The first weight matrix in the narrower float format. -/
theorem V3_v7 (c : Dev nD) :
    V3 m ρ c main_v7 = truncf .bf16 (m ((c : Thread nD τ).loc main_arg4)) bitsLt_bf16_f32 := by
  show StableHlo.after hostOps1 (W2 m ρ c) (Proc.devRef .tc main_v7) = _
  after_results
  rw [W2_of_ne m ρ c main_arg4 (by decide)]
  exact congrArg (truncf .bf16 · bitsLt_bf16_f32) (V1_arg4 m ρ c)

/-- The second weight matrix in the narrower float format. -/
theorem V3_v8 (c : Dev nD) :
    V3 m ρ c main_v8 = truncf .bf16 (m ((c : Thread nD τ).loc main_arg6)) bitsLt_bf16_f32 := by
  show StableHlo.after hostOps1 (W2 m ρ c) (Proc.devRef .tc main_v8) = _
  after_results
  rw [W2_of_ne m ρ c main_arg6 (by decide)]
  exact congrArg (truncf .bf16 · bitsLt_bf16_f32) (V1_arg6 m ρ c)

/-- The first bias row reaches the second kernel as reshaped. -/
theorem V3_v4 (c : Dev nD) :
    V3 m ρ c main_v4 = shapeCast S1x16384 (m ((c : Thread nD τ).loc main_arg5)) shapeCasts_S16384_S1x16384 := by
  show StableHlo.after hostOps1 (W2 m ρ c) (Proc.devRef .tc main_v4) = _
  after_results
  rw [W2_of_ne m ρ c main_v4 (by decide)]
  exact V1_v4 m ρ c

/-- The second bias row reaches the second kernel as reshaped. -/
theorem V3_v5 (c : Dev nD) :
    V3 m ρ c main_v5 = shapeCast S1x4096 (m ((c : Thread nD τ).loc main_arg7)) shapeCasts_S4096_S1x4096 := by
  show StableHlo.after hostOps1 (W2 m ρ c) (Proc.devRef .tc main_v5) = _
  after_results
  rw [W2_of_ne m ρ c main_v5 (by decide)]
  exact V1_v5 m ρ c

/-! ## After the second kernel -/

/-- The result is the second kernel's output array, reshaped to [2, 2048, 4096]. -/
theorem W5_v10 (c : Dev nD) :
    W5 m ρ c (Proc.devRef .tc main_v10)
      = shapeCast S2x2048x4096 ((dat1 (V3 m ρ) c).arrAt 6 cfg1.N) shapeCasts_S4096x4096_S2x2048x4096 := by
  show StableHlo.after hostOps2 (W4 m ρ c) (Proc.devRef .tc main_v10) = _
  after_results
  rw [W4_arr m ρ c 6]
  rfl

end Cert.KernelIdeal.Glue

end
-- ==== Proof.Spec.lean ====
/-
  The function both programs compute, one row at a time.

  A row of the input is a vector of 4096 extended reals. The row is first added to its residual row (`rowH`), then
  normalised: its mean (`rowMu`) is subtracted (`rowD`), the mean of the squared deviations (`rowVar`) is shifted by a
  small constant, and each deviation is multiplied by the reciprocal square root of that, scaled by `g` and moved by
  `b` (`rowLn`). The normalised row goes through a dense layer of 16384 outputs followed by the positive part
  (`rowInter`), and through a second dense layer back to 4096 outputs, to which the un-normalised sum row is
  added again (`rowOut`). The two float literals are kept as the words both programs print.
-/
import Idealize.ShloMosaic.PureOps.Ideal
import Idealize.ShloMosaic.Lib.ValueIdx

noncomputable section

open scoped BigOperators

namespace Cert.Spec

open Idealize.ShloMosaic Idealize.ShloMosaic.ValueIdx

/-- The row length, as the float both programs divide by. -/
def nLanes : EReal := Ideal.ofBits .f32 0x45800000#32
/-- The shift under the reciprocal square root. -/
def shift : EReal := Ideal.ofBits .f32 0x3727C5AC#32

/-- The row plus its residual row. -/
def rowH (x r : Fin 4096 → EReal) : Fin 4096 → EReal := fun c => x c + r c
/-- The mean of a row. -/
def rowMu (h : Fin 4096 → EReal) : EReal := Ideal.div (∑ c, h c) nLanes
/-- A row's deviations from its mean. -/
def rowD (h : Fin 4096 → EReal) : Fin 4096 → EReal := fun c => h c - rowMu h
/-- The mean of the squared deviations. -/
def rowVar (h : Fin 4096 → EReal) : EReal := Ideal.div (∑ c, rowD h c * rowD h c) nLanes
/-- The normalised row, scaled by `g` and moved by `b`. -/
def rowLn (h g b : Fin 4096 → EReal) : Fin 4096 → EReal :=
  fun c => rowD h c * Ideal.rsqrt (rowVar h + shift) * g c + b c
/-- The first dense layer and the positive part. -/
def rowInter (ln : Fin 4096 → EReal) (w1 : Fin 4096 → Fin 16384 → EReal) (b1 : Fin 16384 → EReal) : Fin 16384 → EReal :=
  fun i => max ((∑ k, ln k * w1 k i) + b1 i) 0
/-- The second dense layer, its bias, and the sum row added back. -/
def rowOut (inter : Fin 16384 → EReal) (w2 : Fin 16384 → Fin 4096 → EReal) (b2 h : Fin 4096 → EReal) : Fin 4096 → EReal :=
  fun c => ((∑ i, inter i * w2 i c) + b2 c) + h c

/-- The whole result over the [2, 2048, 4096] input: entry (p, q, c) is entry c of the output row computed from
    row (p, q) of the two inputs. -/
def G (x r : (⟨3, ![2, 2048, 4096]⟩ : Shape).Idx → EReal) (g b : (⟨1, ![4096]⟩ : Shape).Idx → EReal)
    (w1 : (⟨2, ![4096, 16384]⟩ : Shape).Idx → EReal) (b1 : (⟨1, ![16384]⟩ : Shape).Idx → EReal)
    (w2 : (⟨2, ![16384, 4096]⟩ : Shape).Idx → EReal) (b2 : (⟨1, ![4096]⟩ : Shape).Idx → EReal) :
    (⟨3, ![2, 2048, 4096]⟩ : Shape).Idx → EReal := fun i =>
  rowOut
    (rowInter
      (rowLn (rowH (fun c => x (ix3 (i 0) (i 1) c)) (fun c => r (ix3 (i 0) (i 1) c))) (fun c => g (ix1 c)) (fun c => b (ix1 c)))
      (fun k j => w1 (ix2 k j)) (fun j => b1 (ix1 j)))
    (fun j c => w2 (ix2 j c)) (fun c => b2 (ix1 c))
    (rowH (fun c => x (ix3 (i 0) (i 1) c)) (fun c => r (ix3 (i 0) (i 1) c)))
    (i 2)

/-- `G` at explicit coordinates. -/
theorem G_apply (x r : (⟨3, ![2, 2048, 4096]⟩ : Shape).Idx → EReal) (g b : (⟨1, ![4096]⟩ : Shape).Idx → EReal)
    (w1 : (⟨2, ![4096, 16384]⟩ : Shape).Idx → EReal) (b1 : (⟨1, ![16384]⟩ : Shape).Idx → EReal)
    (w2 : (⟨2, ![16384, 4096]⟩ : Shape).Idx → EReal) (b2 : (⟨1, ![4096]⟩ : Shape).Idx → EReal)
    (p : Fin 2) (q : Fin 2048) (c : Fin 4096) :
    G x r g b w1 b1 w2 b2 (ix3 p q c) =
      rowOut
        (rowInter
          (rowLn (rowH (fun j => x (ix3 p q j)) (fun j => r (ix3 p q j))) (fun j => g (ix1 j)) (fun j => b (ix1 j)))
          (fun k j => w1 (ix2 k j)) (fun j => b1 (ix1 j)))
        (fun j c => w2 (ix2 j c)) (fun j => b2 (ix1 j))
        (rowH (fun j => x (ix3 p q j)) (fun j => r (ix3 p q j)))
        c := rfl

end Cert.Spec

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LnValue.lean ====
/-
  What the layer-norm kernel leaves in its two output arrays, as whole-array functions of the arrays it reads.

  The kernel runs over 16 grid points; point `t` reads rows `256 t … 256 t + 255` of the two `4096 × 4096` inputs and the
  whole of the two `[1, 4096]` rows, and writes the same rows of its two outputs. Its first stored value is the input
  row plus the residual row; its second is that sum row normalised: the row's mean (lane sum over the row length) is
  subtracted, the mean of the squared deviations is shifted and put under the reciprocal square root, and each
  deviation is multiplied by that, scaled by the first `[1, 4096]` row and moved by the second. At the extended reals
  a change of float format is the identity, so the narrowed second output is that value itself.

  In order: the two stored values at an index `(r, k)` of a block (`res_at`, `ln_at`, the latter as `Spec.rowLn` of
  `Spec.rowH`); each block's entries as entries of its array (`x_block` … `sum_emb`); what a point writes back as a
  block of one whole-array function (`sum_flushed`, `ln_flushed`); every row `R` lies in the block of point `R / 256`
  (`ln_covered`, `sum_covered`); so the arrays end holding those functions (`sum_array`, `ln_array`), read at `(R, k)`
  in `res_final`, `res_final_row` and `ln_final`.
-/
import proofs.«158738_j85487029059846_2_alg».proof.Proof.Gen.KernelIdeal.Frame
import proofs.«158738_j85487029059846_2_alg».proof.Proof.Spec
import proofs.«158738_j85487029059846_2_alg».proof.Proof.LibColumns
import Idealize.ShloMosaic.Lib.Pipeline.Value
import Idealize.ShloMosaic.Lib.ValueIdx
import Idealize.ShloMosaic.PureOps.Ideal.Laws

noncomputable section

open scoped BigOperators

namespace Cert.KernelIdeal.LnValue

open Cert.KernelIdeal Cert.KernelIdeal.Gen Idealize.ShloMosaic Idealize.ShloMosaic.ValueIdx Idealize.ShloMosaic.TcCoe Idealize.SL.Sem
open Idealize.ShloMosaic.Pipeline (Dat)
open Cert.Proof.Columns

/-! ## The two stored values at an index of a block -/

/-- The first stored value is the row plus its residual row, entry by entry. -/
theorem res_at (x0 x1 : Vec Ideal S256x4096 .f32) (r : Fin 256) (k : Fin 4096) :
    k0_pay1 x0 x1 (ix2 r k) = x0 (ix2 r k) + x1 (ix2 r k) := by
  unfold k0_pay1
  simp only [shapeCast_self]
  rfl

/-- The lane sum of row `r` of `q`, given a unit second axis and divided by the row length, is the row's mean. -/
theorem colMean_at (q : FVec Ideal S256x4096 .f32) (r : Fin 256) (u : Fin 1) :
    divf (shapeCast S256x1 (multiReduction .add [1] S256 q 0x00000000#32 reduces_S256x4096_S256 (.inl rfl) rfl) shapeCasts_S256_S256x1)
      (broadcast S256x1 (Scalar.ofBits .f32 0x45800000#32)) (ix2 r u)
      = Ideal.div (∑ j : Fin 4096, q (ix2 r j)) Cert.Spec.nLanes := by
  refine (divf_apply _ _ _).trans ?_
  refine congrArg₂ Ideal.div ?_ rfl
  refine (shapeCast_a_a1_apply _ _ r u).trans ?_
  exact multiReduction_add_rows q _ _ _ _ r

/-- A row whose entries are `H`, less its mean spread back over the lanes, is the row's deviations. -/
theorem dev_at (h : FVec Ideal S256x4096 .f32) (r : Fin 256) (H : Fin 4096 → EReal) (hh : ∀ j : Fin 4096, h (ix2 r j) = H j)
    (k : Fin 4096) :
    subf h (broadcastTo S256x4096
        (divf (shapeCast S256x1 (multiReduction .add [1] S256 h 0x00000000#32 reduces_S256x4096_S256 (.inl rfl) rfl) shapeCasts_S256_S256x1)
          (broadcast S256x1 (Scalar.ofBits .f32 0x45800000#32))) broadcasts_S256x1_S256x4096) (ix2 r k)
      = Cert.Spec.rowD H k := by
  refine (subf_apply _ _ _).trans ?_
  refine congrArg₂ (fun a b : EReal => a - b) (hh k) ?_
  refine (broadcastTo_a1_ab_apply _ _ r k).trans ?_
  refine (colMean_at h r 0).trans ?_
  exact congrArg (fun s : EReal => Ideal.div s Cert.Spec.nLanes) (Finset.sum_congr rfl fun j _ => hh j)

/-- The mean of row `r` of `q`, shifted, under the reciprocal square root, spread back over the lanes. -/
theorem rstd_at (q : FVec Ideal S256x4096 .f32) (r : Fin 256) (k : Fin 4096) :
    broadcastTo S256x4096 (rsqrt (addf
        (divf (shapeCast S256x1 (multiReduction .add [1] S256 q 0x00000000#32 reduces_S256x4096_S256 (.inl rfl) rfl) shapeCasts_S256_S256x1)
          (broadcast S256x1 (Scalar.ofBits .f32 0x45800000#32)))
        (broadcast S256x1 (Scalar.ofBits .f32 0x3727C5AC#32)))) broadcasts_S256x1_S256x4096 (ix2 r k)
      = Ideal.rsqrt (Ideal.div (∑ j : Fin 4096, q (ix2 r j)) Cert.Spec.nLanes + Cert.Spec.shift) := by
  refine (broadcastTo_a1_ab_apply _ _ r k).trans ?_
  exact congrArg (fun s : EReal => Ideal.rsqrt (s + Cert.Spec.shift)) (colMean_at q r 0)

/-- A `[1, 4096]` row spread over 256 rows reads, at `(r, k)`, the row's entry `k`. -/
theorem spreadRow_at {α : Type} (g : S1x4096.Idx → α) (r : Fin 256) (k : Fin 4096) :
    broadcastTo S256x4096 g broadcasts_S1x4096_S256x4096 (ix2 r k) = g (ix2 (0 : Fin 1) k) := by
  refine broadcastTo_apply g _ (ix2 r k) (ix2 (0 : Fin 1) k) fun ax => ?_
  match ax with
  | ⟨0, _⟩ => rfl
  | ⟨1, _⟩ => rfl

/-- The second stored value is the normalised sum row: entry `(r, k)` is entry `k` of `rowLn` of row `r` of the two
    inputs' sum, scaled and moved by the two `[1, 4096]` rows. -/
theorem ln_at (x0 x1 : Vec Ideal S256x4096 .f32) (x2 x3 : Vec Ideal S1x4096 .f32) (r : Fin 256) (k : Fin 4096) :
    k0_pay2 x0 x1 x2 x3 (ix2 r k)
      = Cert.Spec.rowLn (Cert.Spec.rowH (fun j => x0 (ix2 r j)) (fun j => x1 (ix2 r j)))
          (fun j => x2 (ix2 (0 : Fin 1) j)) (fun j => x3 (ix2 (0 : Fin 1) j)) k := by
  have hh : ∀ j : Fin 4096, k0_pay1 x0 x1 (ix2 r j) = Cert.Spec.rowH (fun j => x0 (ix2 r j)) (fun j => x1 (ix2 r j)) j :=
    fun j => res_at x0 x1 r j
  unfold k0_pay2
  generalize k0_pay1 x0 x1 = h at hh ⊢
  generalize Cert.Spec.rowH (fun j => x0 (ix2 r j)) (fun j => x1 (ix2 r j)) = H at hh ⊢
  simp only [shapeCast_self]
  show _ = Cert.Spec.rowD H k * Ideal.rsqrt (Cert.Spec.rowVar H + Cert.Spec.shift) * x2 (ix2 (0 : Fin 1) k) + x3 (ix2 (0 : Fin 1) k)
  refine (truncf_apply (ψ := .bf16) (φ := .f32) _ bitsLt_bf16_f32 (ix2 r k)).trans ?_
  refine (addf_apply _ _ _).trans ?_
  refine congrArg₂ (fun a b : EReal => a + b) ?_ (spreadRow_at x3 r k)
  refine (mulf_apply _ _ _).trans ?_
  refine congrArg₂ (fun a b : EReal => a * b) ?_ (spreadRow_at x2 r k)
  refine (mulf_apply _ _ _).trans ?_
  refine congrArg₂ (fun a b : EReal => a * b) (dev_at h r H hh k) ?_
  refine (rstd_at _ r k).trans ?_
  refine congrArg (fun s : EReal => Ideal.rsqrt (Ideal.div s Cert.Spec.nLanes + Cert.Spec.shift)) ?_
  exact Finset.sum_congr rfl fun j _ =>
    (mulf_apply _ _ _).trans (congrArg₂ (fun a b : EReal => a * b) (dev_at h r H hh j) (dev_at h r H hh j))

/-! ## The blocks of region 0, read off the arrays as the region finds them -/

variable (V : (c : Dev nD) → (b : Ref sig .tc) → Buf (Elt Ideal) ((c : Thread nD τ).loc b))

theorem zero_offsets : (![0, 0] : Fin 2 → Nat) = fun _ => 0 := funext fun a => by fin_cases a <;> rfl

/-- The grid has 16 points. -/
theorem point_lt (t : Fin cfg0.N) : t.val < 16 :=
  Nat.lt_of_lt_of_eq t.isLt N_0

/-- The printed index maps, decided once over the grid: at point `t` the two row-block inputs and the two outputs sit
    at block `(t, 0)`, the two `[1, 4096]` rows at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry `(r, k)` of the first input's block at point `t` is entry `(256 t + r, k)` of the array. -/
theorem x_block (c : Dev nD) (t : Fin cfg0.N) (r : Fin 256) (k : Fin 4096) (R : Fin 4096) (hR : R.val = 256 * t.val + r.val) :
    (iblk0 V c 0 t : Vec Ideal S256x4096 .f32) (ix2 r k) = (V c main_v0 : S4096x4096.Idx → EReal) (ix2 R k) := by
  obtain ⟨e0, e1, -⟩ := block_indices t
  unfold iblk0
  rw [View.read_apply]
  show V c main_v0 _ = V c main_v0 _
  congr 1
  funext a
  apply Fin.ext
  match a with
  | ⟨0, _⟩ => show win0_0.index t (0 : Fin 2) * 256 + 1 * r.val = R.val; rw [e0, hR]; omega
  | ⟨1, _⟩ => show win0_0.index t (1 : Fin 2) * 4096 + 1 * k.val = k.val; rw [e1]; omega

/-- The same for the residual input. -/
theorem res_block (c : Dev nD) (t : Fin cfg0.N) (r : Fin 256) (k : Fin 4096) (R : Fin 4096) (hR : R.val = 256 * t.val + r.val) :
    (iblk0 V c 1 t : Vec Ideal S256x4096 .f32) (ix2 r k) = (V c main_v1 : S4096x4096.Idx → EReal) (ix2 R k) := by
  obtain ⟨-, -, e0, e1, -⟩ := block_indices t
  unfold iblk0
  rw [View.read_apply]
  show V c main_v1 _ = V c main_v1 _
  congr 1
  funext a
  apply Fin.ext
  match a with
  | ⟨0, _⟩ => show win0_1.index t (0 : Fin 2) * 256 + 1 * r.val = R.val; rw [e0, hR]; omega
  | ⟨1, _⟩ => show win0_1.index t (1 : Fin 2) * 4096 + 1 * k.val = k.val; rw [e1]; omega

/-- The scale row's block at every point is the whole `[1, 4096]` array. -/
theorem scale_block (c : Dev nD) (t : Fin cfg0.N) (u : Fin 1) (k : Fin 4096) :
    (iblk0 V c 2 t : Vec Ideal S1x4096 .f32) (ix2 u k) = (V c main_v2 : S1x4096.Idx → EReal) (ix2 u k) := by
  obtain ⟨-, -, -, -, e0, e1, -⟩ := block_indices t
  unfold iblk0
  rw [View.read_apply]
  show V c main_v2 _ = V c main_v2 _
  congr 1
  funext a
  apply Fin.ext
  match a with
  | ⟨0, _⟩ => show win0_2.index t (0 : Fin 2) * 1 + 1 * u.val = u.val; rw [e0]; omega
  | ⟨1, _⟩ => show win0_2.index t (1 : Fin 2) * 4096 + 1 * k.val = k.val; rw [e1]; omega

/-- The same for the offset row. -/
theorem offset_block (c : Dev nD) (t : Fin cfg0.N) (u : Fin 1) (k : Fin 4096) :
    (iblk0 V c 3 t : Vec Ideal S1x4096 .f32) (ix2 u k) = (V c main_v3 : S1x4096.Idx → EReal) (ix2 u k) := by
  obtain ⟨-, -, -, -, -, -, e0, e1, -⟩ := block_indices t
  unfold iblk0
  rw [View.read_apply]
  show V c main_v3 _ = V c main_v3 _
  congr 1
  funext a
  apply Fin.ext
  match a with
  | ⟨0, _⟩ => show win0_3.index t (0 : Fin 2) * 1 + 1 * u.val = u.val; rw [e0]; omega
  | ⟨1, _⟩ => show win0_3.index t (1 : Fin 2) * 4096 + 1 * k.val = k.val; rw [e1]; omega

/-- Entry `(r, k)` of the normalised output's block at point `t` sits at `(256 t + r, k)` of its array. -/
theorem ln_emb (t : Fin cfg0.N) (r : Fin 256) (k : Fin 4096) (R : Fin 4096) (hR : R.val = 256 * t.val + r.val) :
    ((cfg0.win 4).blk t).view.emb (ix2 r k) = (ix2 R k : S4096x4096.Idx) := by
  obtain ⟨-, -, -, -, -, -, -, -, e0, e1, -⟩ := block_indices t
  funext a
  apply Fin.ext
  match a with
  | ⟨0, _⟩ => show win0_4.index t (0 : Fin 2) * 256 + 1 * r.val = R.val; rw [e0, hR]; omega
  | ⟨1, _⟩ => show win0_4.index t (1 : Fin 2) * 4096 + 1 * k.val = k.val; rw [e1]; omega

/-- The same for the sum output. -/
theorem sum_emb (t : Fin cfg0.N) (r : Fin 256) (k : Fin 4096) (R : Fin 4096) (hR : R.val = 256 * t.val + r.val) :
    ((cfg0.win 5).blk t).view.emb (ix2 r k) = (ix2 R k : S4096x4096.Idx) := by
  obtain ⟨-, -, -, -, -, -, -, -, -, -, e0, e1⟩ := block_indices t
  funext a
  apply Fin.ext
  match a with
  | ⟨0, _⟩ => show win0_5.index t (0 : Fin 2) * 256 + 1 * r.val = R.val; rw [e0, hR]; omega
  | ⟨1, _⟩ => show win0_5.index t (1 : Fin 2) * 4096 + 1 * k.val = k.val; rw [e1]; omega

/-! ## What each point writes back, as a block of one whole-array function -/

/-- The sum output as one function of the two input arrays. -/
def sumArr (a0 a1 : S4096x4096.Idx → EReal) : S4096x4096.Idx → EReal := fun i => a0 i + a1 i

/-- The normalised output as one function of the four input arrays: row by row, `rowLn` of the sum row. -/
def lnArr (a0 a1 : S4096x4096.Idx → EReal) (g b : S1x4096.Idx → EReal) : S4096x4096.Idx → EReal := fun i =>
  Cert.Spec.rowLn (Cert.Spec.rowH (fun j => a0 (ix2 (i 0) j)) (fun j => a1 (ix2 (i 0) j)))
    (fun j => g (ix2 (0 : Fin 1) j)) (fun j => b (ix2 (0 : Fin 1) j)) (i 1)

/-- What point `t` writes back to the sum output is block `t` of `sumArr`. -/
theorem sum_flushed (c : Dev nD) (t : Fin cfg0.N) :
    (dat0 V c).flushed 5 t = ((cfg0.win 5).blk t).view.read (Elt Ideal) (sumArr (V c main_v0) (V c main_v1)) := by
  show (cfg0.win 5).cut (grid0.coords t) ((dat0 V c).after 5 t) = _
  rw [after0_5]
  unfold out0_5
  rw [View.canon_unit_zero zero_offsets]
  simp only [View.ld_unit_zero (S := S256x4096) zero_offsets]
  funext j
  obtain ⟨r, k, rfl⟩ : ∃ (r : Fin 256) (k : Fin 4096), j = ix2 r k := ⟨j 0, j 1, eq_ix2 (n0 := 256) (n1 := 4096) j⟩
  have hlt : 256 * t.val + r.val < 4096 := by have := point_lt t; have := r.isLt; omega
  show k0_pay1 (iblk0 V c 0 t) (iblk0 V c 1 t) (ix2 r k) = sumArr (V c main_v0) (V c main_v1) (((cfg0.win 5).blk t).view.emb (ix2 r k))
  rw [sum_emb t r k ⟨_, hlt⟩ rfl]
  refine (res_at _ _ r k).trans ?_
  exact congrArg₂ (fun a b : EReal => a + b) (x_block V c t r k ⟨_, hlt⟩ rfl) (res_block V c t r k ⟨_, hlt⟩ rfl)

/-- What point `t` writes back to the normalised output is block `t` of `lnArr`. -/
theorem ln_flushed (c : Dev nD) (t : Fin cfg0.N) :
    (dat0 V c).flushed 4 t = ((cfg0.win 4).blk t).view.read (Elt Ideal) (lnArr (V c main_v0) (V c main_v1) (V c main_v2) (V c main_v3)) := by
  show (cfg0.win 4).cut (grid0.coords t) ((dat0 V c).after 4 t) = _
  rw [after0_4]
  unfold out0_4
  rw [View.canon_unit_zero zero_offsets]
  simp only [View.ld_unit_zero (S := S256x4096) zero_offsets, View.ld_unit_zero (S := S1x4096) zero_offsets]
  funext j
  obtain ⟨r, k, rfl⟩ : ∃ (r : Fin 256) (k : Fin 4096), j = ix2 r k := ⟨j 0, j 1, eq_ix2 (n0 := 256) (n1 := 4096) j⟩
  have hlt : 256 * t.val + r.val < 4096 := by have := point_lt t; have := r.isLt; omega
  show k0_pay2 (iblk0 V c 0 t) (iblk0 V c 1 t) (iblk0 V c 2 t) (iblk0 V c 3 t) (ix2 r k)
    = lnArr (V c main_v0) (V c main_v1) (V c main_v2) (V c main_v3) (((cfg0.win 4).blk t).view.emb (ix2 r k))
  rw [ln_emb t r k ⟨_, hlt⟩ rfl]
  refine (ln_at _ _ _ _ r k).trans ?_
  show Cert.Spec.rowLn (Cert.Spec.rowH _ _) _ _ k = Cert.Spec.rowLn (Cert.Spec.rowH _ _) _ _ k
  congr 1
  · congr 1
    · funext j; exact x_block V c t r j ⟨_, hlt⟩ rfl
    · funext j; exact res_block V c t r j ⟨_, hlt⟩ rfl
  · funext j; exact scale_block V c t 0 j
  · funext j; exact offset_block V c t 0 j

/-! ## The blocks cover the arrays -/

/-- An index of the normalised output's array is in point `t`'s block iff each coordinate is in the block's range. -/
theorem ln_mem_block (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v6_0).slice (win0_4.rect t)).set ↔ _
  rw [View.set_slice_whole, Rect.mem_set_unit]
  exact Iff.rfl

/-- The same for the sum output. -/
theorem sum_mem_block (t : Fin cfg0.N) (i : S4096x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v6_1).slice (win0_5.rect t)).set ↔ _
  rw [View.set_slice_whole, Rect.mem_set_unit]
  exact Iff.rfl

/-- Row `R` is in the block of point `R / 256`. -/
theorem ln_covered (i : S4096x4096.Idx) : ∃ t : Fin cfg0.N, (cfg0.win 4).flush t = true ∧ i ∈ ((cfg0.win 4).blk t).view.set := by
  have hi0 : (i 0).val < 4096 := idx2_lt0 i
  have hi1 : (i 1).val < 4096 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e0, e1, -⟩ := block_indices t
  refine ⟨t, flush0_4 t, ?_⟩
  rw [ln_mem_block]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- The same for the sum output. -/
theorem sum_covered (i : S4096x4096.Idx) : ∃ t : Fin cfg0.N, (cfg0.win 5).flush t = true ∧ i ∈ ((cfg0.win 5).blk t).view.set := by
  have hi0 : (i 0).val < 4096 := idx2_lt0 i
  have hi1 : (i 1).val < 4096 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := block_indices t
  refine ⟨t, flush0_5 t, ?_⟩
  rw [sum_mem_block]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 4096 ≤ (i 1).val ∧ (i 1).val < win0_5.index t (1 : Fin 2) * 4096 + 4096; rw [e1]; omega

/-! ## The two output arrays after the region -/

/-- The sum output ends holding `sumArr` of the two inputs. -/
theorem sum_array (c : Dev nD) : (dat0 V c).arrAt 5 cfg0.N = sumArr (V c main_v0) (V c main_v1) :=
  (dat0 V c).arrAt_eq_of_cover 5 (sumArr (V c main_v0) (V c main_v1)) (fun t _ => sum_flushed V c t) sum_covered

/-- The normalised output ends holding `lnArr` of the four inputs. -/
theorem ln_array (c : Dev nD) : (dat0 V c).arrAt 4 cfg0.N = lnArr (V c main_v0) (V c main_v1) (V c main_v2) (V c main_v3) :=
  (dat0 V c).arrAt_eq_of_cover 4 (lnArr (V c main_v0) (V c main_v1) (V c main_v2) (V c main_v3)) (fun t _ => ln_flushed V c t) ln_covered

/-- The sum output at `(R, k)`: the two inputs' entries added. -/
theorem res_final (c : Dev nD) (R k : Fin 4096) :
    (dat0 V c).arrAt 5 cfg0.N (ix2 R k)
      = @HAdd.hAdd EReal EReal EReal instHAdd (V c main_v0 (ix2 R k)) (V c main_v1 (ix2 R k)) :=
  congrFun (sum_array V c) (ix2 R k)

/-- The same, as entry `k` of the sum row `rowH` of row `R` of the two inputs. -/
theorem res_final_row (c : Dev nD) (R k : Fin 4096) :
    (dat0 V c).arrAt 5 cfg0.N (ix2 R k)
      = Cert.Spec.rowH (fun j => V c main_v0 (ix2 R j)) (fun j => V c main_v1 (ix2 R j)) k :=
  congrFun (sum_array V c) (ix2 R k)

/-- The normalised output at `(R, k)`: entry `k` of `rowLn` of row `R` of the two inputs' sum. -/
theorem ln_final (c : Dev nD) (R k : Fin 4096) :
    (dat0 V c).arrAt 4 cfg0.N (ix2 R k)
      = Cert.Spec.rowLn (Cert.Spec.rowH (fun j => V c main_v0 (ix2 R j)) (fun j => V c main_v1 (ix2 R j)))
          (fun j => V c main_v2 (ix2 (0 : Fin 1) j)) (fun j => V c main_v3 (ix2 (0 : Fin 1) j)) k :=
  congrFun (ln_array V c) (ix2 R k)

end Cert.KernelIdeal.LnValue

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.FfnPayload.lean ====
/-
  The second kernel's three stored values, read at an index on the extended reals.

  At a grid point the body holds a 512 x 4096 block of normalised rows `x0`, a 4096 x 256 block of the first weight
  matrix `x1`, the matching 256 bias entries `x2`, a 256 x 4096 block of the second weight matrix `x3`, and the running
  512 x 4096 output block `xo`. It stores `xo` plus the product of the positive part of `x0 · x1 + x2` with `x3`; at
  the first point of a run the running block is the zero block; at the last point it adds the output bias row `x4`
  plus the block `x5` of the un-normalised sum rows.
-/
import proofs.«158738_j85487029059846_2_alg».proof.Proof.Gen.KernelIdeal.Skeleton
import proofs.«158738_j85487029059846_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.FfnPayload

open Cert.KernelIdeal Cert.KernelIdeal.Gen Idealize.ShloMosaic Idealize.ShloMosaic.ValueIdx

/-- The block the first point of a run stores is zero everywhere. -/
theorem pay1_apply (i : S512x4096.Idx) : k1_pay1 (F := Ideal) i = 0 := by
  show Ideal.ofBits .f32 0x00000000#32 = 0
  exact Ideal.ofBits_zero_f32

/-- One block step: entry (r, c) of the stored block is the running entry plus the sum over the 256 hidden units of
    the block of (the positive part of the unit's pre-activation at row r) times its weight into column c. -/
theorem pay2_apply (x0 : Vec Ideal S512x4096 .bf16) (x1 : Vec Ideal S4096x256 .bf16) (x2 : Vec Ideal S1x256 .f32)
    (x3 : Vec Ideal S256x4096 .bf16) (xo : Vec Ideal S512x4096 .f32) (r : Fin 512) (c : Fin 4096) :
    k1_pay2 x0 x1 x2 x3 xo (ix2 r c)
      = xo (ix2 r c) + ∑ l : Fin 256, max ((∑ k : Fin 4096, x0 (ix2 r k) * x1 (ix2 k l)) + x2 (ix2 (0 : Fin 1) l)) 0 * x3 (ix2 l c) := by
  unfold k1_pay2
  simp only [shapeCast_self]
  refine (addf_apply _ _ _).trans (congrArg (xo (ix2 r c) + ·) ?_)
  refine (Cert.Proof.PlainDot.matmul_plain_zero (M := 512) (K := 256) (N := 4096) (φ₁ := .bf16) (φ₂ := .bf16) none _ x3 (ix2 r c)).trans ?_
  refine Finset.sum_congr rfl fun l _ => congrArg (· * x3 (ix2 l c)) ?_
  show max (_ + _) (Ideal.ofBits .f32 0x00000000#32) = _
  rw [Ideal.ofBits_zero_f32]
  refine congrArg (max · 0) (congrArg₂ (· + ·) ?_ ?_)
  · exact Cert.Proof.PlainDot.matmul_plain_zero (M := 512) (K := 4096) (N := 256) (φ₁ := .bf16) (φ₂ := .bf16) none x0 x1 (ix2 r l)
  · exact broadcastTo_1b_ab_apply x2 broadcasts_S1x256_S512x256 r l

/-- The last point's extra step: the running entry plus (the output bias of the column plus the sum-row entry). -/
theorem pay3_apply (xo : Vec Ideal S512x4096 .f32) (x4 : Vec Ideal S1x4096 .f32) (x5 : Vec Ideal S512x4096 .f32)
    (r : Fin 512) (c : Fin 4096) :
    k1_pay3 xo x4 x5 (ix2 r c) = xo (ix2 r c) + (x4 (ix2 (0 : Fin 1) c) + x5 (ix2 r c)) := by
  unfold k1_pay3
  simp only [shapeCast_self]
  refine (addf_apply _ _ _).trans (congrArg (xo (ix2 r c) + ·) ?_)
  refine (addf_apply _ _ _).trans (congrArg (· + x5 (ix2 r c)) ?_)
  exact broadcastTo_1b_ab_apply x4 broadcasts_S1x4096_S512x4096 r c

end Cert.KernelIdeal.FfnPayload

end
-- ==== Proof.FfnCases.lean ====
/-
  What each of the second kernel's three control cases leaves in its output block, as a value.

  The kernel's grid is 8 row blocks by 64 steps; the output block of a row block stays in place over the 64 steps.
  At the first step the body resets the block to zero before adding its product; at the steps in between it adds its
  product to what the step before left; at the last step it also adds the bias row and the sum-row block. Each case's
  stores, read back through the whole block, are the stored values of the body's arithmetic over the point's input
  blocks.
-/
import proofs.«158738_j85487029059846_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.FfnCases

open Cert.KernelIdeal Cert.KernelIdeal.Gen

variable {F : FTy → Type} [FloatOps F]

theorem hz : (![0, 0] : Fin 2 → Nat) = fun _ => 0 := funext fun a => by fin_cases a <;> rfl

/-- A point in the middle of a run: the body leaves, in the output block holding `xo`, one block step over `xo`. -/
theorem out_B (c : Dev nD) (i : grid1.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : ¬cond1_0 i) (hc1 : ¬cond1_1 i) (x0 : Vec F S512x4096 .bf16) (x1 : Vec F S4096x256 .bf16) (x2 : Vec F S1x256 .f32) (x3 : Vec F S256x4096 .bf16) (x4 : Vec F S1x4096 .f32) (x5 : Vec F S512x4096 .f32) (xo : Vec F S512x4096 .f32) :
    out1_B_6 c i a2 h2 a3 h3 a4 h4 a5 h5 a6 h6 a7 h7 a8 h8 hc0 hc1 x0 x1 x2 x3 x4 x5 xo = k1_pay2 x0 x1 x2 x3 xo := by
  unfold out1_B_6
  rw [View.read_writes_eq_canon _ _ _ (cover1_B_6 c i a2 h2 a3 h3 a4 h4 a5 h5 a6 h6 a7 h7 a8 h8 hc0 hc1 x0 x1 x2 x3 x4 x5 xo)]
  unfold kernelRun1_B
  dsimp only
  rw [View.canon_unit_zero hz]
  simp only [View.readAt_eq_ld, h2.read_unread, h3.read_unread, h4.read_unread, h5.read_unread, h6.read_unread, h7.read_unread, h8.read_unread,
    View.ld_unit_zero (S := S512x4096) hz, View.ld_unit_zero (S := S4096x256) hz, View.ld_unit_zero (S := S1x256) hz,
    View.ld_unit_zero (S := S256x4096) hz, View.ld_unit_zero (S := S1x4096) hz]

/-- The first point of a run: the body stores the zero block, reads it back, and leaves one block step over it. -/
theorem out_A (c : Dev nD) (i : grid1.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : cond1_0 i) (hc1 : ¬cond1_1 i) (x0 : Vec F S512x4096 .bf16) (x1 : Vec F S4096x256 .bf16) (x2 : Vec F S1x256 .f32) (x3 : Vec F S256x4096 .bf16) (x4 : Vec F S1x4096 .f32) (x5 : Vec F S512x4096 .f32) :
    out1_A_6 c i a2 h2 a3 h3 a4 h4 a5 h5 a6 h6 a7 h7 a8 h8 hc0 hc1 x0 x1 x2 x3 x4 x5 = k1_pay2 x0 x1 x2 x3 (k1_pay1 (F := F)) := by
  unfold out1_A_6
  rw [View.read_writes_eq_canon _ _ _ (cover1_A_6 c i a2 h2 a3 h3 a4 h4 a5 h5 a6 h6 a7 h7 a8 h8 hc0 hc1 x0 x1 x2 x3 x4 x5)]
  unfold kernelRun1_A
  dsimp only
  sl_unfold_words
  rw [View.canon_cons_unit_zero (S := S512x4096) hz, View.readCov_unit_zero (S := S512x4096) _ hz]
  simp only [View.readAt_eq_ld, h2.read_unread, h3.read_unread, h4.read_unread, h5.read_unread, h6.read_unread, h7.read_unread, h8.read_unread,
    View.ld_unit_zero (S := S512x4096) hz, View.ld_unit_zero (S := S4096x256) hz, View.ld_unit_zero (S := S1x256) hz,
    View.ld_unit_zero (S := S256x4096) hz, View.ld_unit_zero (S := S1x4096) hz]

/-- The last point of a run: one block step over `xo`, read back, then the closing step with the bias row and the
    sum-row block. -/
theorem out_C (c : Dev nD) (i : grid1.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : ¬cond1_0 i) (hc1 : cond1_1 i) (x0 : Vec F S512x4096 .bf16) (x1 : Vec F S4096x256 .bf16) (x2 : Vec F S1x256 .f32) (x3 : Vec F S256x4096 .bf16) (x4 : Vec F S1x4096 .f32) (x5 : Vec F S512x4096 .f32) (xo : Vec F S512x4096 .f32) :
    out1_C_6 c i a2 h2 a3 h3 a4 h4 a5 h5 a6 h6 a7 h7 a8 h8 hc0 hc1 x0 x1 x2 x3 x4 x5 xo = k1_pay3 (k1_pay2 x0 x1 x2 x3 xo) x4 x5 := by
  unfold out1_C_6
  rw [View.read_writes_eq_canon _ _ _ (cover1_C_6 c i a2 h2 a3 h3 a4 h4 a5 h5 a6 h6 a7 h7 a8 h8 hc0 hc1 x0 x1 x2 x3 x4 x5 xo)]
  unfold kernelRun1_C
  dsimp only
  sl_unfold_words
  rw [View.canon_cons_unit_zero (S := S512x4096) hz, View.readCov_unit_zero (S := S512x4096) _ hz]
  simp only [View.readAt_eq_ld, h2.read_unread, h3.read_unread, h4.read_unread, h5.read_unread, h6.read_unread, h7.read_unread, h8.read_unread,
    View.ld_unit_zero (S := S512x4096) hz, View.ld_unit_zero (S := S4096x256) hz, View.ld_unit_zero (S := S1x256) hz,
    View.ld_unit_zero (S := S256x4096) hz, View.ld_unit_zero (S := S1x4096) hz]

end Cert.KernelIdeal.FfnCases

end
-- ==== Proof.FfnBlocks.lean ====
/-
  The second kernel's input blocks, read at an index of the arrays the region finds.

  The grid is 8 row blocks by 64 steps, walked row block by row block: point t is step t % 64 of row block t / 64.
  The normalised rows and the sum rows come in blocks of 512 rows (row 512 (t / 64) + r of the array), the first
  weight matrix and its bias in blocks of 256 columns (column 256 (t % 64) + l), the second weight matrix in blocks of
  256 rows (row 256 (t % 64) + l), the output bias whole.
-/
import proofs.«158738_j85487029059846_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.FfnBlocks

open Cert.KernelIdeal Cert.KernelIdeal.Gen

variable (V : (c : Dev nD) → (b : Ref sig .tc) → Buf (Elt Ideal) ((c : Thread nD τ).loc b))

/-- The printed index maps over the grid: which block of its array each window stages at point t. -/
theorem idx_facts : ∀ t : Fin cfg1.N,
    win1_0.index t (0 : Fin 2) = t.val / 64 ∧ win1_0.index t (1 : Fin 2) = 0
    ∧ win1_1.index t (0 : Fin 2) = 0 ∧ win1_1.index t (1 : Fin 2) = t.val % 64
    ∧ win1_2.index t (0 : Fin 2) = 0 ∧ win1_2.index t (1 : Fin 2) = t.val % 64
    ∧ win1_3.index t (0 : Fin 2) = t.val % 64 ∧ win1_3.index t (1 : Fin 2) = 0
    ∧ win1_4.index t (0 : Fin 2) = 0 ∧ win1_4.index t (1 : Fin 2) = 0
    ∧ win1_5.index t (0 : Fin 2) = t.val / 64 ∧ win1_5.index t (1 : Fin 2) = 0
    ∧ win1_6.index t (0 : Fin 2) = t.val / 64 ∧ win1_6.index t (1 : Fin 2) = 0 :=
  (by decide +kernel : ∀ t : Fin grid1.N, _)

/-- The block of normalised rows at point t: row r of the block is row 512 (t / 64) + r of the array. -/
theorem iblk_rows (c : Dev nD) (t : Fin cfg1.N) (r : Fin 512) (k : Fin 4096) (R : Fin 4096)
    (hR : R.val = 512 * (t.val / 64) + r.val) :
    (iblk1 V c 0 t : S512x4096.Idx → EReal) (ix2 r k) = (V c main_v6_0 : S4096x4096.Idx → EReal) (ix2 R k) := by
  obtain ⟨e0, e1, -⟩ := idx_facts t
  unfold iblk1
  rw [View.read_apply]
  show V c main_v6_0 _ = V c main_v6_0 _
  refine congrArg (V c main_v6_0) (funext fun a => Fin.ext ?_)
  match a with
  | ⟨0, _⟩ => show win1_0.index t (0 : Fin 2) * 512 + 1 * r.val = R.val; rw [e0, hR]; omega
  | ⟨1, _⟩ => show win1_0.index t (1 : Fin 2) * 4096 + 1 * k.val = k.val; rw [e1]; omega

/-- The block of the first weight matrix at point t: column l of the block is column 256 (t % 64) + l. -/
theorem iblk_w1 (c : Dev nD) (t : Fin cfg1.N) (k : Fin 4096) (l : Fin 256) (j : Fin 16384)
    (hj : j.val = 256 * (t.val % 64) + l.val) :
    (iblk1 V c 1 t : S4096x256.Idx → EReal) (ix2 k l) = (V c main_v7 : S4096x16384.Idx → EReal) (ix2 k j) := by
  obtain ⟨-, -, e0, e1, -⟩ := idx_facts t
  unfold iblk1
  rw [View.read_apply]
  show V c main_v7 _ = V c main_v7 _
  refine congrArg (V c main_v7) (funext fun a => Fin.ext ?_)
  match a with
  | ⟨0, _⟩ => show win1_1.index t (0 : Fin 2) * 4096 + 1 * k.val = k.val; rw [e0]; omega
  | ⟨1, _⟩ => show win1_1.index t (1 : Fin 2) * 256 + 1 * l.val = j.val; rw [e1, hj]; omega

/-- The block of the first bias at point t: entry l of the block is entry 256 (t % 64) + l. -/
theorem iblk_b1 (c : Dev nD) (t : Fin cfg1.N) (l : Fin 256) (j : Fin 16384)
    (hj : j.val = 256 * (t.val % 64) + l.val) :
    (iblk1 V c 2 t : S1x256.Idx → EReal) (ix2 (0 : Fin 1) l) = (V c main_v4 : S1x16384.Idx → EReal) (ix2 (0 : Fin 1) j) := by
  obtain ⟨-, -, -, -, e0, e1, -⟩ := idx_facts t
  unfold iblk1
  rw [View.read_apply]
  show V c main_v4 _ = V c main_v4 _
  refine congrArg (V c main_v4) (funext fun a => Fin.ext ?_)
  match a with
  | ⟨0, _⟩ => show win1_2.index t (0 : Fin 2) * 1 + 1 * 0 = 0; rw [e0]
  | ⟨1, _⟩ => show win1_2.index t (1 : Fin 2) * 256 + 1 * l.val = j.val; rw [e1, hj]; omega

/-- The block of the second weight matrix at point t: row l of the block is row 256 (t % 64) + l. -/
theorem iblk_w2 (c : Dev nD) (t : Fin cfg1.N) (l : Fin 256) (col : Fin 4096) (j : Fin 16384)
    (hj : j.val = 256 * (t.val % 64) + l.val) :
    (iblk1 V c 3 t : S256x4096.Idx → EReal) (ix2 l col) = (V c main_v8 : S16384x4096.Idx → EReal) (ix2 j col) := by
  obtain ⟨-, -, -, -, -, -, e0, e1, -⟩ := idx_facts t
  unfold iblk1
  rw [View.read_apply]
  show V c main_v8 _ = V c main_v8 _
  refine congrArg (V c main_v8) (funext fun a => Fin.ext ?_)
  match a with
  | ⟨0, _⟩ => show win1_3.index t (0 : Fin 2) * 256 + 1 * l.val = j.val; rw [e0, hj]; omega
  | ⟨1, _⟩ => show win1_3.index t (1 : Fin 2) * 4096 + 1 * col.val = col.val; rw [e1]; omega

/-- The output bias row is staged whole at every point. -/
theorem iblk_b2 (c : Dev nD) (t : Fin cfg1.N) (col : Fin 4096) :
    (iblk1 V c 4 t : S1x4096.Idx → EReal) (ix2 (0 : Fin 1) col) = (V c main_v5 : S1x4096.Idx → EReal) (ix2 (0 : Fin 1) col) := by
  obtain ⟨-, -, -, -, -, -, -, -, e0, e1, -⟩ := idx_facts t
  unfold iblk1
  rw [View.read_apply]
  show V c main_v5 _ = V c main_v5 _
  refine congrArg (V c main_v5) (funext fun a => Fin.ext ?_)
  match a with
  | ⟨0, _⟩ => show win1_4.index t (0 : Fin 2) * 1 + 1 * 0 = 0; rw [e0]
  | ⟨1, _⟩ => show win1_4.index t (1 : Fin 2) * 4096 + 1 * col.val = col.val; rw [e1]; omega

/-- The block of sum rows at point t: row r of the block is row 512 (t / 64) + r of the array. -/
theorem iblk_res (c : Dev nD) (t : Fin cfg1.N) (r : Fin 512) (col : Fin 4096) (R : Fin 4096)
    (hR : R.val = 512 * (t.val / 64) + r.val) :
    (iblk1 V c 5 t : S512x4096.Idx → EReal) (ix2 r col) = (V c main_v6_1 : S4096x4096.Idx → EReal) (ix2 R col) := by
  obtain ⟨-, -, -, -, -, -, -, -, -, -, e0, e1, -⟩ := idx_facts t
  unfold iblk1
  rw [View.read_apply]
  show V c main_v6_1 _ = V c main_v6_1 _
  refine congrArg (V c main_v6_1) (funext fun a => Fin.ext ?_)
  match a with
  | ⟨0, _⟩ => show win1_5.index t (0 : Fin 2) * 512 + 1 * r.val = R.val; rw [e0, hR]; omega
  | ⟨1, _⟩ => show win1_5.index t (1 : Fin 2) * 4096 + 1 * col.val = col.val; rw [e1]; omega

end Cert.KernelIdeal.FfnBlocks

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.FfnValue.lean ====
/-
  What the second kernel leaves in its output array.

  For a row R = 512 q + r and a column, the 64 steps of row block q add, one block of 256 hidden units at a time, the
  products of the hidden units' activations at row R with their weights into the column; the first step starts from
  zero and the last also adds the column's output bias plus the sum-row entry. Summed over the 64 blocks this is the
  whole contraction over the 16384 hidden units, so the entry is the specification's output row at that column.
-/
import proofs.«158738_j85487029059846_2_alg».proof.Proof.Gen.KernelIdeal.Frame
import proofs.«158738_j85487029059846_2_alg».proof.Proof.FfnPayload
import proofs.«158738_j85487029059846_2_alg».proof.Proof.FfnCases
import proofs.«158738_j85487029059846_2_alg».proof.Proof.FfnBlocks
import proofs.«158738_j85487029059846_2_alg».proof.Proof.LibSumRuns
import proofs.«158738_j85487029059846_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.FfnValue

open Cert.KernelIdeal Cert.KernelIdeal.Gen Cert.KernelIdeal.FfnBlocks

variable (V : (c : Dev nD) → (b : Ref sig .tc) → Buf (Elt Ideal) ((c : Thread nD τ).loc b))

/-- Hidden unit i's share of entry (R, col): the positive part of its pre-activation at row R times its weight into
    the column; zero past the last unit. -/
def hid (LN : S4096x4096.Idx → EReal) (W1 : S4096x16384.Idx → EReal) (B1 : S1x16384.Idx → EReal)
    (W2 : S16384x4096.Idx → EReal) (R col : Fin 4096) (i : ℕ) : EReal :=
  if h : i < 16384 then
    max ((∑ k : Fin 4096, LN (ix2 R k) * W1 (ix2 k ⟨i, h⟩)) + B1 (ix2 (0 : Fin 1) ⟨i, h⟩)) 0 * W2 (ix2 ⟨i, h⟩ col)
  else 0

/-- The arrays the region finds, at their literal types: the normalised rows, the two weight matrices, the two bias
    rows, the sum rows. -/
abbrev aLN (c : Dev nD) : S4096x4096.Idx → EReal := V c main_v6_0
abbrev aW1 (c : Dev nD) : S4096x16384.Idx → EReal := V c main_v7
abbrev aB1 (c : Dev nD) : S1x16384.Idx → EReal := V c main_v4
abbrev aW2 (c : Dev nD) : S16384x4096.Idx → EReal := V c main_v8
abbrev aB2 (c : Dev nD) : S1x4096.Idx → EReal := V c main_v5
abbrev aRES (c : Dev nD) : S4096x4096.Idx → EReal := V c main_v6_1

/-- The shares over the arrays the region finds. -/
abbrev hidV (c : Dev nD) (R col : Fin 4096) (i : ℕ) : EReal :=
  hid (aLN V c) (aW1 V c) (aB1 V c) (aW2 V c) R col i

/-- The product a point adds at entry (r, col) of its block is the shares of its 256 hidden units, when the point's
    blocks are block s of the weights and the rows around R of the normalised rows. -/
theorem block_term_of (LN : S4096x4096.Idx → EReal) (W1 : S4096x16384.Idx → EReal) (B1 : S1x16384.Idx → EReal)
    (W2 : S16384x4096.Idx → EReal) (x0 : Vec Ideal S512x4096 .bf16) (x1 : Vec Ideal S4096x256 .bf16)
    (x2 : Vec Ideal S1x256 .f32) (x3 : Vec Ideal S256x4096 .bf16) (r : Fin 512) (col R : Fin 4096) (s : ℕ) (hs : s < 64)
    (e0 : ∀ k : Fin 4096, x0 (ix2 r k) = LN (ix2 R k))
    (e1 : ∀ (k : Fin 4096) (l : Fin 256) (j : Fin 16384), j.val = 256 * s + l.val → x1 (ix2 k l) = W1 (ix2 k j))
    (e2 : ∀ (l : Fin 256) (j : Fin 16384), j.val = 256 * s + l.val → x2 (ix2 (0 : Fin 1) l) = B1 (ix2 (0 : Fin 1) j))
    (e3 : ∀ (l : Fin 256) (j : Fin 16384), j.val = 256 * s + l.val → x3 (ix2 l col) = W2 (ix2 j col)) :
    (∑ l : Fin 256, max ((∑ k : Fin 4096, x0 (ix2 r k) * x1 (ix2 k l)) + x2 (ix2 (0 : Fin 1) l)) 0 * x3 (ix2 l col))
      = ∑ l : Fin 256, hid LN W1 B1 W2 R col (256 * s + l.val) := by
  refine Finset.sum_congr rfl fun l _ => ?_
  have hlt : 256 * s + l.val < 16384 := by have := l.isLt; omega
  unfold hid
  rw [dif_pos hlt, e2 l ⟨_, hlt⟩ rfl, e3 l ⟨_, hlt⟩ rfl]
  refine congrArg (fun x => max (x + _) 0 * _) (Finset.sum_congr rfl fun k _ => ?_)
  rw [e0 k, e1 k l ⟨_, hlt⟩ rfl]

/-- The point's six input blocks, at their literal types. -/
abbrev k0 (c : Dev nD) (t : Fin cfg1.N) : Vec Ideal S512x4096 .bf16 := iblk1 V c 0 t
abbrev k1 (c : Dev nD) (t : Fin cfg1.N) : Vec Ideal S4096x256 .bf16 := iblk1 V c 1 t
abbrev k2 (c : Dev nD) (t : Fin cfg1.N) : Vec Ideal S1x256 .f32 := iblk1 V c 2 t
abbrev k3 (c : Dev nD) (t : Fin cfg1.N) : Vec Ideal S256x4096 .bf16 := iblk1 V c 3 t
abbrev k4 (c : Dev nD) (t : Fin cfg1.N) : Vec Ideal S1x4096 .f32 := iblk1 V c 4 t
abbrev k5 (c : Dev nD) (t : Fin cfg1.N) : Vec Ideal S512x4096 .f32 := iblk1 V c 5 t

/-- The same at point t of the grid, over the point's blocks. -/
theorem block_term (c : Dev nD) (t : Fin cfg1.N) (r : Fin 512) (col R : Fin 4096)
    (hR : R.val = 512 * (t.val / 64) + r.val) (s : ℕ) (hs : t.val % 64 = s) :
    (∑ l : Fin 256, max ((∑ k : Fin 4096, k0 V c t (ix2 r k) * k1 V c t (ix2 k l)) + k2 V c t (ix2 (0 : Fin 1) l)) 0
        * k3 V c t (ix2 l col))
      = ∑ l : Fin 256, hidV V c R col (256 * s + l.val) :=
  block_term_of (aLN V c) (aW1 V c) (aB1 V c) (aW2 V c) (k0 V c t) (k1 V c t) (k2 V c t) (k3 V c t)
    r col R s (by have := Nat.mod_lt t.val (show 64 > 0 by norm_num); omega)
    (fun k => iblk_rows V c t r k R hR)
    (fun k l j hj => iblk_w1 V c t k l j (by rw [hs]; exact hj))
    (fun l j hj => iblk_b1 V c t l j (by rw [hs]; exact hj))
    (fun l j hj => iblk_w2 V c t l col j (by rw [hs]; exact hj))

/-- The first step of a run leaves its own product. -/
theorem stepA (c : Dev nD) (t : Fin cfg1.N) (h0 : t.val % 64 = 0) (r : Fin 512) (col R : Fin 4096)
    (hR : R.val = 512 * (t.val / 64) + r.val) :
    (outsAt1 V c t.val t.isLt : Vec Ideal S512x4096 .f32) (ix2 r col) = ∑ l : Fin 256, hidV V c R col (256 * 0 + l.val) := by
  have h1 : ¬ t.val % 64 = 63 := by omega
  rw [outsAt1_A V c t h0 h1, FfnCases.out_A]
  refine (FfnPayload.pay2_apply (k0 V c t) (k1 V c t) (k2 V c t) (k3 V c t) (k1_pay1 (F := Ideal)) r col).trans ?_
  rw [FfnPayload.pay1_apply, zero_add]
  exact block_term V c t r col R hR 0 h0

/-- A step in the middle of a run adds its product to what the step before left. -/
theorem stepB (c : Dev nD) (t : Fin cfg1.N) (h0 : ¬ t.val % 64 = 0) (h1 : ¬ t.val % 64 = 63) (r : Fin 512)
    (col R : Fin 4096) (hR : R.val = 512 * (t.val / 64) + r.val) (s : ℕ) (hs : t.val % 64 = s) :
    (outsAt1 V c t.val t.isLt : Vec Ideal S512x4096 .f32) (ix2 r col)
      = (outsAt1 V c (t.val - 1) (Nat.lt_of_le_of_lt (Nat.sub_le _ _) t.isLt) : Vec Ideal S512x4096 .f32) (ix2 r col)
        + ∑ l : Fin 256, hidV V c R col (256 * s + l.val) := by
  rw [outsAt1_B V c t h0 h1, FfnCases.out_B]
  refine (FfnPayload.pay2_apply (k0 V c t) (k1 V c t) (k2 V c t) (k3 V c t) _ r col).trans ?_
  exact congrArg (_ + ·) (block_term V c t r col R hR s hs)

/-- The last step of a run adds its product, then the column's output bias plus the sum-row entry. -/
theorem stepC (c : Dev nD) (t : Fin cfg1.N) (h0 : ¬ t.val % 64 = 0) (h1 : t.val % 64 = 63) (r : Fin 512)
    (col R : Fin 4096) (hR : R.val = 512 * (t.val / 64) + r.val) :
    (outsAt1 V c t.val t.isLt : Vec Ideal S512x4096 .f32) (ix2 r col)
      = ((outsAt1 V c (t.val - 1) (Nat.lt_of_le_of_lt (Nat.sub_le _ _) t.isLt) : Vec Ideal S512x4096 .f32) (ix2 r col)
          + ∑ l : Fin 256, hidV V c R col (256 * 63 + l.val))
        + (aB2 V c (ix2 (0 : Fin 1) col) + aRES V c (ix2 R col)) := by
  rw [outsAt1_C V c t h0 h1, FfnCases.out_C]
  refine (FfnPayload.pay3_apply _ (k4 V c t) (k5 V c t) r col).trans ?_
  refine congrArg₂ (· + ·) ?_ (congrArg₂ (· + ·) (iblk_b2 V c t col) (iblk_res V c t r col R hR))
  refine (FfnPayload.pay2_apply (k0 V c t) (k1 V c t) (k2 V c t) (k3 V c t) _ r col).trans ?_
  exact congrArg (_ + ·) (block_term V c t r col R hR 63 h1)

/-- The point-indexed contents depend on the point's number only. -/
theorem outsAt_congr (c : Dev nD) {n n' : ℕ} (e : n = n') (h : n < cfg1.N) (h' : n' < cfg1.N) :
    outsAt1 V c n h = outsAt1 V c n' h' := by subst e; rfl

/-- Within row block q, after step j < 63 the entry holds the shares of the hidden units of blocks 0 … j. -/
theorem run_acc (c : Dev nD) (q : ℕ) (r : Fin 512) (col R : Fin 4096) (hR : R.val = 512 * q + r.val) :
    ∀ (j : ℕ) (_ : j < 63) (h : 64 * q + j < cfg1.N),
      (outsAt1 V c (64 * q + j) h : Vec Ideal S512x4096 .f32) (ix2 r col) = ∑ s ∈ Finset.range (j + 1), ∑ l : Fin 256, hidV V c R col (256 * s + l.val)
  | 0, _, h => by
    have hdiv : (64 * q + 0) / 64 = q := by omega
    rw [Finset.sum_range_one]
    exact stepA V c ⟨64 * q + 0, h⟩ (by show (64 * q + 0) % 64 = 0; omega) r col R
      (by show R.val = 512 * ((64 * q + 0) / 64) + r.val; rw [hdiv]; exact hR)
  | j + 1, hj, h => by
    have hN : cfg1.N = 512 := N_1
    have hdiv : (64 * q + (j + 1)) / 64 = q := by omega
    have hmod : (64 * q + (j + 1)) % 64 = j + 1 := by omega
    rw [Finset.sum_range_succ, ← run_acc c q r col R hR j (by omega) (by omega)]
    refine (stepB V c ⟨64 * q + (j + 1), h⟩ (by show ¬ (64 * q + (j + 1)) % 64 = 0; omega)
      (by show ¬ (64 * q + (j + 1)) % 64 = 63; omega) r col R
      (by show R.val = 512 * ((64 * q + (j + 1)) / 64) + r.val; rw [hdiv]; exact hR) (j + 1) hmod).trans ?_
    exact congrArg (· (ix2 r col) + _) (outsAt_congr V c (by show 64 * q + (j + 1) - 1 = 64 * q + j; omega) _ _)

/-- After the last step of row block q the entry holds the shares of all 64 blocks, plus the column's output bias plus
    the sum-row entry. -/
theorem run_last (c : Dev nD) (q : ℕ) (r : Fin 512) (col R : Fin 4096) (hR : R.val = 512 * q + r.val)
    (h : 64 * q + 63 < cfg1.N) :
    (outsAt1 V c (64 * q + 63) h : Vec Ideal S512x4096 .f32) (ix2 r col)
      = (∑ s ∈ Finset.range 64, ∑ l : Fin 256, hidV V c R col (256 * s + l.val))
        + (aB2 V c (ix2 (0 : Fin 1) col) + aRES V c (ix2 R col)) := by
  have hN : cfg1.N = 512 := N_1
  have hdiv : (64 * q + 63) / 64 = q := by omega
  rw [Finset.sum_range_succ, ← run_acc V c q r col R hR 62 (by omega) (by omega)]
  refine (stepC V c ⟨64 * q + 63, h⟩ (by show ¬ (64 * q + 63) % 64 = 0; omega)
    (by show (64 * q + 63) % 64 = 63; omega) r col R
    (by show R.val = 512 * ((64 * q + 63) / 64) + r.val; rw [hdiv]; exact hR)).trans ?_
  exact congrArg (fun x => (x (ix2 r col) + _) + _) (outsAt_congr V c (by show 64 * q + 63 - 1 = 64 * q + 62; omega) _ _)

/-- The 64 blocks of 256 shares are the 16384 hidden units, each once: the entry's contraction over the second dense
    layer. -/
theorem sum_blocks (LN : S4096x4096.Idx → EReal) (W1 : S4096x16384.Idx → EReal) (B1 : S1x16384.Idx → EReal)
    (W2 : S16384x4096.Idx → EReal) (R col : Fin 4096) :
    (∑ s ∈ Finset.range 64, ∑ l : Fin 256, hid LN W1 B1 W2 R col (256 * s + l.val))
      = ∑ i : Fin 16384, Spec.rowInter (fun k => LN (ix2 R k)) (fun k j => W1 (ix2 k j)) (fun j => B1 (ix2 (0 : Fin 1) j)) i
          * W2 (ix2 i col) := by
  refine (Cert.LibSumRuns.sum_fin_runs (hid LN W1 B1 W2 R col) 64 256).trans ?_
  show (∑ i : Fin 16384, hid LN W1 B1 W2 R col i.val) = _
  refine Finset.sum_congr rfl fun i _ => ?_
  unfold hid
  rw [dif_pos i.isLt]
  rfl

/-- Entry (R, col) of the output array, as the specification's output row. -/
def outAt (c : Dev nD) (R col : Fin 4096) : EReal :=
  Spec.rowOut
    (Spec.rowInter (fun k => aLN V c (ix2 R k)) (fun k j => aW1 V c (ix2 k j)) (fun j => aB1 V c (ix2 (0 : Fin 1) j)))
    (fun j cc => aW2 V c (ix2 j cc)) (fun cc => aB2 V c (ix2 (0 : Fin 1) cc)) (fun cc => aRES V c (ix2 R cc)) col

/-- The whole output array. -/
def outArr (c : Dev nD) : S4096x4096.Idx → EReal :=
  fun i => outAt V c ⟨(i 0).val, (i 0).isLt⟩ ⟨(i 1).val, (i 1).isLt⟩

theorem outArr_apply (c : Dev nD) (R col : Fin 4096) : outArr V c (ix2 R col) = outAt V c R col := rfl

/-- What the last step of row block q leaves at (r, col) is the output array's entry at row 512 q + r. -/
theorem last_eq (c : Dev nD) (t : Fin cfg1.N) (h63 : t.val % 64 = 63) (r : Fin 512) (col : Fin 4096)
    (i : S4096x4096.Idx) (hi0 : (i 0).val = 512 * (t.val / 64) + r.val) (hi1 : (i 1).val = col.val) :
    (outsAt1 V c t.val t.isLt : Vec Ideal S512x4096 .f32) (ix2 r col) = outArr V c i := by
  have hN : cfg1.N = 512 := N_1
  have ht := t.isLt
  have hcol : (⟨(i 1).val, (i 1).isLt⟩ : Fin 4096) = col := Fin.ext hi1
  show _ = outAt V c ⟨(i 0).val, (i 0).isLt⟩ ⟨(i 1).val, (i 1).isLt⟩
  rw [hcol]
  have e := run_last V c (t.val / 64) r col ⟨(i 0).val, (i 0).isLt⟩ hi0 (by omega)
  rw [outsAt_congr V c (show t.val = 64 * (t.val / 64) + 63 by omega) t.isLt (by omega), e, sum_blocks]
  unfold outAt Spec.rowOut
  exact (add_assoc _ _ _).symm

/-- What the last step of a row block writes back is that block of the output array. -/
theorem flushed_eq (c : Dev nD) (t : Fin cfg1.N) (hf : (cfg1.win 6).flush t = true) :
    (dat1 V c).flushed 6 t = ((cfg1.win 6).blk t).view.read (Elt Ideal) (outArr V c) := by
  have h63 : t.val % 64 = 63 := (flush1_6 t).mp hf
  obtain ⟨-, -, -, -, -, -, -, -, -, -, -, -, e0, e1⟩ := idx_facts t
  show (cfg1.win 6).cut (grid1.coords t) ((dat1 V c).after 6 t) = _
  rw [after1_6]
  show (outsAt1 V c t.val t.isLt : S512x4096.Idx → EReal) = fun y : S512x4096.Idx => outArr V c (((cfg1.win 6).blk t).view.emb y)
  funext y
  refine (congrArg (outsAt1 V c t.val t.isLt) (eq_ix2 y)).trans (last_eq V c t h63 (y 0) (y 1) _ ?_ ?_)
  · show win1_6.index t (0 : Fin 2) * 512 + 1 * (y 0).val = 512 * (t.val / 64) + (y 0).val
    rw [e0]; omega
  · show win1_6.index t (1 : Fin 2) * 4096 + 1 * (y 1).val = (y 1).val
    rw [e1]; omega

/-- An index of the array is in point t's output block iff each coordinate is in the block's range on its axis. -/
theorem mem_blk (t : Fin cfg1.N) (i : S4096x4096.Idx) :
    i ∈ ((cfg1.win 6).blk t).view.set ↔ ∀ a : Fin 2, win1_6.index t a * S512x4096.size a ≤ (i a).val
      ∧ (i a).val < win1_6.index t a * S512x4096.size a + S512x4096.size a := by
  show i ∈ ((View.whole main_v9).slice (win1_6.rect t)).set ↔ _
  rw [View.set_slice_whole, Rect.mem_set_unit]
  exact Iff.rfl

/-- Row R of the array is written back by the last step of row block R / 512. -/
theorem cover (i : S4096x4096.Idx) :
    ∃ t : Fin cfg1.N, (cfg1.win 6).flush t = true ∧ i ∈ ((cfg1.win 6).blk t).view.set := by
  have hN : cfg1.N = 512 := N_1
  have hi0 : (i 0).val < 4096 := (i 0).isLt
  have hi1 : (i 1).val < 4096 := (i 1).isLt
  have hlt : 64 * ((i 0).val / 512) + 63 < cfg1.N := by omega
  obtain ⟨-, -, -, -, -, -, -, -, -, -, -, -, e0, e1⟩ := idx_facts ⟨64 * ((i 0).val / 512) + 63, hlt⟩
  refine ⟨⟨64 * ((i 0).val / 512) + 63, hlt⟩, (flush1_6 _).mpr (by show (64 * ((i 0).val / 512) + 63) % 64 = 63; omega), ?_⟩
  rw [mem_blk]
  intro a
  match a with
  | ⟨0, _⟩ =>
    show win1_6.index ⟨64 * ((i 0).val / 512) + 63, hlt⟩ (0 : Fin 2) * 512 ≤ (i 0).val
      ∧ (i 0).val < win1_6.index ⟨64 * ((i 0).val / 512) + 63, hlt⟩ (0 : Fin 2) * 512 + 512
    rw [e0]
    show (64 * ((i 0).val / 512) + 63) / 64 * 512 ≤ (i 0).val ∧ (i 0).val < (64 * ((i 0).val / 512) + 63) / 64 * 512 + 512
    omega
  | ⟨1, _⟩ =>
    show win1_6.index ⟨64 * ((i 0).val / 512) + 63, hlt⟩ (1 : Fin 2) * 4096 ≤ (i 1).val
      ∧ (i 1).val < win1_6.index ⟨64 * ((i 0).val / 512) + 63, hlt⟩ (1 : Fin 2) * 4096 + 4096
    rw [e1]; omega

/-- The output array after the run. -/
theorem out_final (c : Dev nD) : (dat1 V c).arrAt 6 cfg1.N = outArr V c :=
  (dat1 V c).arrAt_eq_of_cover 6 (outArr V c) (flushed_eq V c) (cover)

end Cert.KernelIdeal.FfnValue

end
-- ==== Proof.Reshapes.lean ====
/-
  The two reshapes between the [2, 2048, 4096] layout and the 4096 x 4096 layout, read at an index: entry (p, q, j)
  of the first is entry (2048 p + q, j) of the second, both being position (2048 p + q) 4096 + j in row-major order.
-/
import Idealize.ShloMosaic.Lib.Pipeline.Value
import Idealize.ShloMosaic.Lib.ValueIdx

noncomputable section

namespace Cert.Reshapes

open Idealize.ShloMosaic Idealize.ShloMosaic.ValueIdx

variable {α : Type}

/-- Flattening the two leading axes: row 2048 p + q of the matrix is row (p, q) of the array. -/
theorem flatten_apply (x : (⟨3, ![2, 2048, 4096]⟩ : Shape).Idx → α)
    (h : (⟨3, ![2, 2048, 4096]⟩ : Shape).ShapeCasts ⟨2, ![4096, 4096]⟩) (p : Fin 2) (q : Fin 2048) (j R : Fin 4096)
    (hR : R.val = 2048 * p.val + q.val) : shapeCast ⟨2, ![4096, 4096]⟩ x h (ix2 R j) = x (ix3 p q j) :=
  shapeCast_apply x h _ _ (by
    rw [Shape.rowMajor_val_three, Shape.rowMajor_val_two]
    show (p.val * 2048 + q.val) * 4096 + j.val = R.val * 4096 + j.val
    rw [hR, Nat.mul_comm 2048 p.val])

/-- Splitting the rows back: row (p, q) of the array is row 2048 p + q of the matrix. -/
theorem unflatten_apply (y : (⟨2, ![4096, 4096]⟩ : Shape).Idx → α)
    (h : (⟨2, ![4096, 4096]⟩ : Shape).ShapeCasts ⟨3, ![2, 2048, 4096]⟩) (p : Fin 2) (q : Fin 2048) (j R : Fin 4096)
    (hR : R.val = 2048 * p.val + q.val) : shapeCast ⟨3, ![2, 2048, 4096]⟩ y h (ix3 p q j) = y (ix2 R j) :=
  shapeCast_apply y h _ _ (by
    rw [Shape.rowMajor_val_two, Shape.rowMajor_val_three]
    show R.val * 4096 + j.val = (p.val * 2048 + q.val) * 4096 + j.val
    rw [hR, Nat.mul_comm 2048 p.val])

end Cert.Reshapes

end
-- ==== Proof.KernelValue.lean ====
/-
  The idealized kernel program's result is the specification of its eight arguments.

  The result buffer holds the second kernel's output array reshaped to [2, 2048, 4096]; entry (p, q, col) is the
  array's entry at row R = 2048 p + q. That entry is the specification's output row over the arrays the second kernel
  finds: the first kernel's normalised rows and sum rows, which at row R are the normalised row and the sum row of
  row (p, q) of the two inputs, and the weights and biases, which are the arguments themselves up to a reshape or a
  change of float format.
-/
import proofs.«158738_j85487029059846_2_alg».proof.Proof.Gen.KernelIdeal.Frame
import proofs.«158738_j85487029059846_2_alg».proof.Proof.KernelRun
import proofs.«158738_j85487029059846_2_alg».proof.Proof.Glue
import proofs.«158738_j85487029059846_2_alg».proof.Proof.LnValue
import proofs.«158738_j85487029059846_2_alg».proof.Proof.FfnValue
import proofs.«158738_j85487029059846_2_alg».proof.Proof.Reshapes
import proofs.«158738_j85487029059846_2_alg».proof.Proof.Spec
import Idealize.ShloMosaic.Lib.ValueLayout
import Idealize.ShloMosaic.Lib.ValueIdx

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen

variable (m : (ℓ : Loc nD τ sig) → Buf (Elt Ideal) ℓ) (ρ : Dev nD → PrngReg)

/-- The eight arguments as launched, at their literal types. -/
abbrev a0 (c : Dev nD) : S2x2048x4096.Idx → EReal := m ((c : Thread nD τ).loc main_arg0)
abbrev a1 (c : Dev nD) : S2x2048x4096.Idx → EReal := m ((c : Thread nD τ).loc main_arg1)
abbrev a2 (c : Dev nD) : S4096.Idx → EReal := m ((c : Thread nD τ).loc main_arg2)
abbrev a3 (c : Dev nD) : S4096.Idx → EReal := m ((c : Thread nD τ).loc main_arg3)
abbrev a4 (c : Dev nD) : S4096x16384.Idx → EReal := m ((c : Thread nD τ).loc main_arg4)
abbrev a5 (c : Dev nD) : S16384.Idx → EReal := m ((c : Thread nD τ).loc main_arg5)
abbrev a6 (c : Dev nD) : S16384x4096.Idx → EReal := m ((c : Thread nD τ).loc main_arg6)
abbrev a7 (c : Dev nD) : S4096.Idx → EReal := m ((c : Thread nD τ).loc main_arg7)

/-- Row R = 2048 p + q of the first input's matrix is row (p, q) of the input. -/
theorem x_row (c : Dev nD) (p : Fin 2) (q : Fin 2048) (R : Fin 4096) (hR : R.val = 2048 * p.val + q.val) :
    (fun j : Fin 4096 => (V1 m ρ c main_v0 : S4096x4096.Idx → EReal) (ix2 R j)) = fun j => a0 m c (ix3 p q j) :=
  funext fun j => (congrFun (Glue.V1_v0 m ρ c) (ix2 R j)).trans (Reshapes.flatten_apply _ _ p q j R hR)

/-- The same for the residual input. -/
theorem r_row (c : Dev nD) (p : Fin 2) (q : Fin 2048) (R : Fin 4096) (hR : R.val = 2048 * p.val + q.val) :
    (fun j : Fin 4096 => (V1 m ρ c main_v1 : S4096x4096.Idx → EReal) (ix2 R j)) = fun j => a1 m c (ix3 p q j) :=
  funext fun j => (congrFun (Glue.V1_v1 m ρ c) (ix2 R j)).trans (Reshapes.flatten_apply _ _ p q j R hR)

/-- The scale row is the scale vector. -/
theorem g_row (c : Dev nD) :
    (fun j : Fin 4096 => (V1 m ρ c main_v2 : S1x4096.Idx → EReal) (ix2 (0 : Fin 1) j)) = fun j => a2 m c (ix1 j) :=
  funext fun j => (congrFun (Glue.V1_v2 m ρ c) (ix2 (0 : Fin 1) j)).trans (shapeCast_a_1a_apply _ _ 0 j)

/-- The shift row is the shift vector. -/
theorem b_row (c : Dev nD) :
    (fun j : Fin 4096 => (V1 m ρ c main_v3 : S1x4096.Idx → EReal) (ix2 (0 : Fin 1) j)) = fun j => a3 m c (ix1 j) :=
  funext fun j => (congrFun (Glue.V1_v3 m ρ c) (ix2 (0 : Fin 1) j)).trans (shapeCast_a_1a_apply _ _ 0 j)

/-- Row R of the normalised rows the second kernel finds is the normalised row (p, q). -/
theorem ln_row (c : Dev nD) (p : Fin 2) (q : Fin 2048) (R : Fin 4096) (hR : R.val = 2048 * p.val + q.val) :
    (fun k : Fin 4096 => FfnValue.aLN (V3 m ρ) c (ix2 R k))
      = Spec.rowLn (Spec.rowH (fun j => a0 m c (ix3 p q j)) (fun j => a1 m c (ix3 p q j)))
          (fun j => a2 m c (ix1 j)) (fun j => a3 m c (ix1 j)) := by
  funext k
  refine (congrFun (Glue.V3_v6_0 m ρ c) (ix2 R k)).trans ?_
  refine (LnValue.ln_final (V1 m ρ) c R k).trans ?_
  rw [x_row m ρ c p q R hR, r_row m ρ c p q R hR, g_row m ρ c, b_row m ρ c]

/-- Row R of the sum rows the second kernel finds is the sum row (p, q). -/
theorem res_row (c : Dev nD) (p : Fin 2) (q : Fin 2048) (R : Fin 4096) (hR : R.val = 2048 * p.val + q.val) :
    (fun k : Fin 4096 => FfnValue.aRES (V3 m ρ) c (ix2 R k))
      = Spec.rowH (fun j => a0 m c (ix3 p q j)) (fun j => a1 m c (ix3 p q j)) := by
  funext k
  refine (congrFun (Glue.V3_v6_1 m ρ c) (ix2 R k)).trans ?_
  refine (LnValue.res_final_row (V1 m ρ) c R k).trans ?_
  rw [x_row m ρ c p q R hR, r_row m ρ c p q R hR]

/-- The first weight matrix the second kernel finds is the argument (a change of float format only). -/
theorem w1_eq (c : Dev nD) : (fun (k : Fin 4096) (j : Fin 16384) => FfnValue.aW1 (V3 m ρ) c (ix2 k j)) = fun k j => a4 m c (ix2 k j) :=
  funext fun k => funext fun j => congrFun (Glue.V3_v7 m ρ c) (ix2 k j)

/-- The second weight matrix likewise. -/
theorem w2_eq (c : Dev nD) : (fun (j : Fin 16384) (cc : Fin 4096) => FfnValue.aW2 (V3 m ρ) c (ix2 j cc)) = fun j cc => a6 m c (ix2 j cc) :=
  funext fun j => funext fun cc => congrFun (Glue.V3_v8 m ρ c) (ix2 j cc)

/-- The first bias row is the bias vector. -/
theorem b1_eq (c : Dev nD) : (fun j : Fin 16384 => FfnValue.aB1 (V3 m ρ) c (ix2 (0 : Fin 1) j)) = fun j => a5 m c (ix1 j) :=
  funext fun j => (congrFun (Glue.V3_v4 m ρ c) (ix2 (0 : Fin 1) j)).trans (shapeCast_a_1a_apply _ _ 0 j)

/-- The second bias row is the bias vector. -/
theorem b2_eq (c : Dev nD) : (fun cc : Fin 4096 => FfnValue.aB2 (V3 m ρ) c (ix2 (0 : Fin 1) cc)) = fun cc => a7 m c (ix1 cc) :=
  funext fun cc => (congrFun (Glue.V3_v5 m ρ c) (ix2 (0 : Fin 1) cc)).trans (shapeCast_a_1a_apply _ _ 0 cc)

/-- The result buffer's last contents are the specification of the arguments. -/
theorem result_eq (c : Dev nD) :
    (W5 m ρ c (Proc.devRef .tc main_v10) : S2x2048x4096.Idx → EReal)
      = Spec.G (a0 m c) (a1 m c) (a2 m c) (a3 m c) (a4 m c) (a5 m c) (a6 m c) (a7 m c) := by
  refine (Glue.W5_v10 m ρ c).trans ?_
  rw [FfnValue.out_final (V3 m ρ) c]
  funext i
  obtain ⟨p, q, col, rfl⟩ : ∃ (p : Fin 2) (q : Fin 2048) (col : Fin 4096), i = ix3 p q col := ⟨i 0, i 1, i 2, eq_ix3 i⟩
  have hRlt : 2048 * p.val + q.val < 4096 := by have := p.isLt; have := q.isLt; omega
  refine (Reshapes.unflatten_apply (FfnValue.outArr (V3 m ρ) c) _ p q col ⟨_, hRlt⟩ rfl).trans ?_
  rw [FfnValue.outArr_apply, Spec.G_apply]
  unfold FfnValue.outAt
  rw [ln_row m ρ c p q ⟨_, hRlt⟩ rfl, res_row m ρ c p q ⟨_, hRlt⟩ rfl, w1_eq m ρ c, w2_eq m ρ c, b1_eq m ρ c, b2_eq m ρ c]

/-- The run, read: the result at the specification of the arguments, the arguments unchanged. -/
theorem run : θ_run defs (onTc (τ := τ) (main (F := Ideal))) ⟨m, fun _ => 0, ρ⟩ (fun r => ∀ c : Dev nD,
      r.2.mem ((c.tc : Thread nD τ).loc main_v10)
        = Spec.G (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (RunValue.run m ρ)

end Cert.KernelIdeal.KernelValue

end
-- ==== Proof.RefValue.lean ====
/-
  The reference program's result, read entry by entry, is the specification `Spec.G` of its eight arguments.

  Every intermediate value of the reference is read at literal coordinates `(p, q, c)` and identified with the
  corresponding row function of the specification, taken on row `(p, q)` of the two inputs: the sum row, its mean,
  its deviations, the mean squared deviation, the normalised row, the first dense layer with its positive part, and
  the second dense layer with the sum row added back.
-/
import proofs.«158738_j85487029059846_2_alg».proof.Proof.Gen.ReferenceIdeal.Read
import proofs.«158738_j85487029059846_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

section Rows

variable (x0 x1 : (⟨S2x2048x4096, .f32⟩ : BufTy).Contents (Elt Ideal))
  (x2 x3 : (⟨S4096, .f32⟩ : BufTy).Contents (Elt Ideal))
  (x4 : (⟨S4096x16384, .f32⟩ : BufTy).Contents (Elt Ideal)) (x5 : (⟨S16384, .f32⟩ : BufTy).Contents (Elt Ideal))
  (x6 : (⟨S16384x4096, .f32⟩ : BufTy).Contents (Elt Ideal)) (x7 : (⟨S4096, .f32⟩ : BufTy).Contents (Elt Ideal))

/-- Row `(p, q)` of the sum of the first two arguments. -/
abbrev hRow (p : Fin 2) (q : Fin 2048) : Fin 4096 → EReal :=
  Spec.rowH (fun j => x0 (ix3 p q j)) (fun j => x1 (ix3 p q j))

/-- The normalised row `(p, q)`. -/
abbrev lnRow (p : Fin 2) (q : Fin 2048) : Fin 4096 → EReal :=
  Spec.rowLn (hRow x0 x1 p q) (fun j => x2 (ix1 j)) (fun j => x3 (ix1 j))

/-- Row `(p, q)` after the first dense layer and the positive part. -/
abbrev interRow (p : Fin 2) (q : Fin 2048) : Fin 16384 → EReal :=
  Spec.rowInter (lnRow x0 x1 x2 x3 p q) (fun k j => x4 (ix2 k j)) (fun j => x5 (ix1 j))

/-! ## The sum row and its mean -/

/-- The elementwise sum, at literal coordinates, is the sum row. -/
theorem v0_at (p : Fin 2) (q : Fin 2048) (c : Fin 4096) :
    val_main_v0 (F := Ideal) x0 x1 (ix3 p q c) = hRow x0 x1 p q c := rfl

/-- The sum over the last axis, at `(p, q)`, is the sum of the sum row. -/
theorem v1_at (p : Fin 2) (q : Fin 2048) :
    val_main_v1 (F := Ideal) x0 x1 (ix2 p q) = ∑ k : Fin 4096, hRow x0 x1 p q k := by
  refine (val_main_v1_apply x0 x1 (ix2 p q)).trans ?_
  rw [val_main_cst_apply, Ideal.ofBits_def, Ideal.ofBits_zero_f32, zero_add]
  refine Finset.sum_congr rfl fun k _ => ?_
  have e : idx_main_v1 (ix2 p q) k = ix3 p q k :=
    funext fun a => Fin.ext (by match a with | ⟨0, _⟩ => rfl | ⟨1, _⟩ => rfl | ⟨2, _⟩ => rfl)
  rw [e]; rfl

/-- The mean, kept with a last axis of size one. -/
theorem v4_at (p : Fin 2) (q : Fin 2048) (z : Fin 1) :
    val_main_v4 (F := Ideal) x0 x1 (ix3 p q z) = Spec.rowMu (hRow x0 x1 p q) := by
  rw [val_main_v4_apply, val_main_v2_apply, val_main_v3_apply, val_main_cst_0_apply, Ideal.hostDivf_def, Ideal.ofBits_def]
  have e : idx_main_v2 (ix3 p q z) = ix2 p q :=
    funext fun a => Fin.ext (by match a with | ⟨0, _⟩ => rfl | ⟨1, _⟩ => rfl)
  rw [e, v1_at]; rfl

/-! ## The deviations and their mean square -/

/-- The mean broadcast back over the row. -/
theorem v5_at (p : Fin 2) (q : Fin 2048) (c : Fin 4096) :
    val_main_v5 (F := Ideal) x0 x1 (ix3 p q c) = Spec.rowMu (hRow x0 x1 p q) := by
  rw [val_main_v5_apply]
  have e : idx_main_v5 (ix3 p q c) = ix3 p q (⟨0, Nat.one_pos⟩ : Fin 1) :=
    funext fun a => Fin.ext (by match a with | ⟨0, _⟩ => rfl | ⟨1, _⟩ => rfl | ⟨2, _⟩ => rfl)
  rw [e, v4_at]

/-- The first copy of the deviations. -/
theorem v6_at (p : Fin 2) (q : Fin 2048) (c : Fin 4096) :
    val_main_v6 (F := Ideal) x0 x1 (ix3 p q c) = Spec.rowD (hRow x0 x1 p q) c := by
  rw [val_main_v6_apply, v5_at, v0_at, Ideal.subf_def]; rfl

/-- The sum of the squared deviations over the last axis. -/
theorem v8_at (p : Fin 2) (q : Fin 2048) :
    val_main_v8 (F := Ideal) x0 x1 (ix2 p q)
      = ∑ k : Fin 4096, Spec.rowD (hRow x0 x1 p q) k * Spec.rowD (hRow x0 x1 p q) k := by
  refine (val_main_v8_apply x0 x1 (ix2 p q)).trans ?_
  rw [val_main_cst_1_apply, Ideal.ofBits_def, Ideal.ofBits_zero_f32, zero_add]
  refine Finset.sum_congr rfl fun k _ => ?_
  have e : idx_main_v8 (ix2 p q) k = ix3 p q k :=
    funext fun a => Fin.ext (by match a with | ⟨0, _⟩ => rfl | ⟨1, _⟩ => rfl | ⟨2, _⟩ => rfl)
  rw [e, val_main_v7_apply, v6_at, Ideal.mulf_def]

/-- The mean squared deviation, kept with a last axis of size one. -/
theorem v11_at (p : Fin 2) (q : Fin 2048) (z : Fin 1) :
    val_main_v11 (F := Ideal) x0 x1 (ix3 p q z) = Spec.rowVar (hRow x0 x1 p q) := by
  rw [val_main_v11_apply, val_main_v9_apply, val_main_v10_apply, val_main_cst_2_apply, Ideal.hostDivf_def,
    Ideal.ofBits_def]
  have e : idx_main_v9 (ix3 p q z) = ix2 p q :=
    funext fun a => Fin.ext (by match a with | ⟨0, _⟩ => rfl | ⟨1, _⟩ => rfl)
  rw [e, v8_at]; rfl

/-- The second copy of the deviations. -/
theorem v13_at (p : Fin 2) (q : Fin 2048) (c : Fin 4096) :
    val_main_v13 (F := Ideal) x0 x1 (ix3 p q c) = Spec.rowD (hRow x0 x1 p q) c := by
  rw [val_main_v13_apply, val_main_v12_apply]
  have e : idx_main_v12 (ix3 p q c) = ix3 p q (⟨0, Nat.one_pos⟩ : Fin 1) :=
    funext fun a => Fin.ext (by match a with | ⟨0, _⟩ => rfl | ⟨1, _⟩ => rfl | ⟨2, _⟩ => rfl)
  rw [e, v4_at, v0_at, Ideal.subf_def]; rfl

/-- The reciprocal square root of the shifted mean squared deviation. -/
theorem v16_at (p : Fin 2) (q : Fin 2048) (z : Fin 1) :
    val_main_v16 (F := Ideal) x0 x1 (ix3 p q z) = Ideal.rsqrt (Spec.rowVar (hRow x0 x1 p q) + Spec.shift) := by
  rw [val_main_v16_apply, val_main_v15_apply, v11_at, val_main_v14_apply, val_main_cst_3_apply,
    Ideal.hostUnary_rsqrt_def, Ideal.addf_def, Ideal.ofBits_def]; rfl

/-- The same, broadcast back over the row. -/
theorem v17_at (p : Fin 2) (q : Fin 2048) (c : Fin 4096) :
    val_main_v17 (F := Ideal) x0 x1 (ix3 p q c) = Ideal.rsqrt (Spec.rowVar (hRow x0 x1 p q) + Spec.shift) := by
  rw [val_main_v17_apply]
  have e : idx_main_v17 (ix3 p q c) = ix3 p q (⟨0, Nat.one_pos⟩ : Fin 1) :=
    funext fun a => Fin.ext (by match a with | ⟨0, _⟩ => rfl | ⟨1, _⟩ => rfl | ⟨2, _⟩ => rfl)
  rw [e, v16_at]

/-! ## The normalised row -/

/-- A vector of length 4096 broadcast along the last axis (scale). -/
theorem v20_at (p : Fin 2) (q : Fin 2048) (c : Fin 4096) :
    val_main_v20 (F := Ideal) x2 (ix3 p q c) = x2 (ix1 c) := by
  rw [val_main_v20_apply, val_main_v19_apply]
  exact congrArg x2 (funext fun a => Fin.ext (by match a with | ⟨0, _⟩ => rfl))

/-- A vector of length 4096 broadcast along the last axis (offset). -/
theorem v23_at (p : Fin 2) (q : Fin 2048) (c : Fin 4096) :
    val_main_v23 (F := Ideal) x3 (ix3 p q c) = x3 (ix1 c) := by
  rw [val_main_v23_apply, val_main_v22_apply]
  exact congrArg x3 (funext fun a => Fin.ext (by match a with | ⟨0, _⟩ => rfl))

/-- The normalised, scaled and moved row. -/
theorem v24_at (p : Fin 2) (q : Fin 2048) (c : Fin 4096) :
    val_main_v24 (F := Ideal) x0 x1 x2 x3 (ix3 p q c) = lnRow x0 x1 x2 x3 p q c := by
  rw [val_main_v24_apply, val_main_v21_apply, val_main_v18_apply, v13_at, v17_at, v20_at, v23_at,
    Ideal.addf_def, Ideal.mulf_def, Ideal.mulf_def]
  rfl

/-! ## The two dense layers -/

/-- The first dense layer's products, summed over the row. -/
theorem v25_at (p : Fin 2) (q : Fin 2048) (j : Fin 16384) :
    val_main_v25 (F := Ideal) x0 x1 x2 x3 x4 (ix3 p q j)
      = ∑ k : Fin 4096, lnRow x0 x1 x2 x3 p q k * x4 (ix2 k j) := by
  refine (val_main_v25_apply x0 x1 x2 x3 x4 (ix3 p q j)).trans ?_
  refine Finset.sum_congr rfl fun k _ => ?_
  have el : lidx_main_v25 (ix3 p q j) k = ix3 p q k :=
    funext fun a => Fin.ext (by match a with | ⟨0, _⟩ => rfl | ⟨1, _⟩ => rfl | ⟨2, _⟩ => rfl)
  have er : ridx_main_v25 (ix3 p q j) k = ix2 k j :=
    funext fun a => Fin.ext (by match a with | ⟨0, _⟩ => rfl | ⟨1, _⟩ => rfl)
  rw [el, er, v24_at]

/-- The first bias, broadcast along the last axis. -/
theorem v27_at (p : Fin 2) (q : Fin 2048) (j : Fin 16384) :
    val_main_v27 (F := Ideal) x5 (ix3 p q j) = x5 (ix1 j) := by
  rw [val_main_v27_apply, val_main_v26_apply]
  exact congrArg x5 (funext fun a => Fin.ext (by match a with | ⟨0, _⟩ => rfl))

/-- The first dense layer followed by the positive part. -/
theorem v29_at (p : Fin 2) (q : Fin 2048) (j : Fin 16384) :
    val_main_v29 (F := Ideal) x0 x1 x2 x3 x4 x5 (ix3 p q j) = interRow x0 x1 x2 x3 x4 x5 p q j := by
  rw [val_main_v29_apply, val_main_v28_apply, v25_at, v27_at, val_main_call0_v0_apply, val_main_call0_cst_apply,
    Ideal.maximumf_def, Ideal.addf_def, Ideal.ofBits_def, Ideal.ofBits_zero_f32]
  rfl

/-- The second dense layer's products, summed over the intermediate row. -/
theorem v30_at (p : Fin 2) (q : Fin 2048) (c : Fin 4096) :
    val_main_v30 (F := Ideal) x0 x1 x2 x3 x4 x5 x6 (ix3 p q c)
      = ∑ k : Fin 16384, interRow x0 x1 x2 x3 x4 x5 p q k * x6 (ix2 k c) := by
  refine (val_main_v30_apply x0 x1 x2 x3 x4 x5 x6 (ix3 p q c)).trans ?_
  refine Finset.sum_congr rfl fun k _ => ?_
  have el : lidx_main_v30 (ix3 p q c) k = ix3 p q k :=
    funext fun a => Fin.ext (by match a with | ⟨0, _⟩ => rfl | ⟨1, _⟩ => rfl | ⟨2, _⟩ => rfl)
  have er : ridx_main_v30 (ix3 p q c) k = ix2 k c :=
    funext fun a => Fin.ext (by match a with | ⟨0, _⟩ => rfl | ⟨1, _⟩ => rfl)
  rw [el, er, v29_at]

/-- The second bias, broadcast along the last axis. -/
theorem v32_at (p : Fin 2) (q : Fin 2048) (c : Fin 4096) :
    val_main_v32 (F := Ideal) x7 (ix3 p q c) = x7 (ix1 c) := by
  rw [val_main_v32_apply, val_main_v31_apply]
  exact congrArg x7 (funext fun a => Fin.ext (by match a with | ⟨0, _⟩ => rfl))

/-- The whole result at literal coordinates: the output row of the specification. -/
theorem v34_at (p : Fin 2) (q : Fin 2048) (c : Fin 4096) :
    val_main_v34 (F := Ideal) x0 x1 x2 x3 x4 x5 x6 x7 (ix3 p q c)
      = Spec.rowOut (interRow x0 x1 x2 x3 x4 x5 p q) (fun j c => x6 (ix2 j c)) (fun j => x7 (ix1 j))
          (hRow x0 x1 p q) c := by
  rw [val_main_v34_apply, val_main_v33_apply, v30_at, v32_at, v0_at, Ideal.addf_def, Ideal.addf_def]
  rfl

end Rows

/-- The reference's result is the specification of its eight arguments. -/
theorem ref_eq (x0 x1 : (⟨S2x2048x4096, .f32⟩ : BufTy).Contents (Elt Ideal)) (x2 x3 : (⟨S4096, .f32⟩ : BufTy).Contents (Elt Ideal))
    (x4 : (⟨S4096x16384, .f32⟩ : BufTy).Contents (Elt Ideal)) (x5 : (⟨S16384, .f32⟩ : BufTy).Contents (Elt Ideal))
    (x6 : (⟨S16384x4096, .f32⟩ : BufTy).Contents (Elt Ideal)) (x7 : (⟨S4096, .f32⟩ : BufTy).Contents (Elt Ideal)) :
    val_main_v34 (F := Ideal) x0 x1 x2 x3 x4 x5 x6 x7 = Cert.Spec.G x0 x1 x2 x3 x4 x5 x6 x7 := by
  funext i
  obtain ⟨p, q, c, rfl⟩ : ∃ (p : Fin 2) (q : Fin 2048) (c : Fin 4096), i = ix3 p q c := ⟨i 0, i 1, i 2, eq_ix3 i⟩
  exact (v34_at x0 x1 x2 x3 x4 x5 x6 x7 p q c).trans (Cert.Spec.G_apply x0 x1 x2 x3 x4 x5 x6 x7 p q c).symm

end Cert.ReferenceIdeal.RefValue

end
-- ==== Proof.lean ====
/-
  The certificate's claim: the kernel program and its idealization run to the end leaving their arguments unchanged,
  and so does the idealized reference; the idealization rewrote nothing; and at the extended reals the idealized kernel
  and the idealized reference, run from memories that agree on the eight arguments, end with the same result.

  Both results are the one function `Spec.G` of the arguments: a row of the input plus its residual row is
  normalised (mean removed, divided by the square root of the mean squared deviation plus a small constant, scaled and
  shifted), passed through a dense layer of 16384 units with a positive part, through a second dense layer back to
  4096 columns, and the un-normalised sum row is added again. The kernel computes the second layer's contraction in 64
  blocks of 256 hidden units, from a zero start, and adds the bias and the sum row together at the end; over the
  extended reals addition is associative and commutative, so the block sums are the whole sum and the two groupings
  of the last additions agree. No finiteness of the inputs is used.
-/
import proofs.«158738_j85487029059846_2_alg».proof.Defs
import proofs.«158738_j85487029059846_2_alg».proof.Proof.Gen.Kernel
import proofs.«158738_j85487029059846_2_alg».proof.Proof.Gen.Kernel.Skeleton
import proofs.«158738_j85487029059846_2_alg».proof.Proof.Gen.Kernel.Launch
import proofs.«158738_j85487029059846_2_alg».proof.Proof.Gen.Kernel.Points
import proofs.«158738_j85487029059846_2_alg».proof.Proof.Gen.Kernel.Frame
import proofs.«158738_j85487029059846_2_alg».proof.Proof.Gen.KernelIdeal
import proofs.«158738_j85487029059846_2_alg».proof.Proof.Gen.KernelIdeal.Skeleton
import proofs.«158738_j85487029059846_2_alg».proof.Proof.Gen.KernelIdeal.Launch
import proofs.«158738_j85487029059846_2_alg».proof.Proof.Gen.KernelIdeal.Points
import proofs.«158738_j85487029059846_2_alg».proof.Proof.Gen.KernelIdeal.Frame
import proofs.«158738_j85487029059846_2_alg».proof.Proof.Gen.ReferenceIdeal
import proofs.«158738_j85487029059846_2_alg».proof.Proof.Gen.Pre_finite_inputs
import proofs.«158738_j85487029059846_2_alg».proof.Proof.Gen.ReferenceIdeal.Run
import proofs.«158738_j85487029059846_2_alg».proof.Proof.Gen.ReferenceIdeal.Read
import proofs.«158738_j85487029059846_2_alg».proof.Proof.KernelValue
import proofs.«158738_j85487029059846_2_alg».proof.Proof.RefValue
import Idealize.ShloMosaic.Adequacy
import Idealize.ShloMosaic.Init

noncomputable section

namespace Cert.Proof

open Idealize.ShloMosaic Idealize.ShloMosaic.TcCoe Idealize.SL.Sem

/-- The kernel program runs to the end and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the specification of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact Cert.ReferenceIdeal.RefValue.ref_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
